-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x3 .f32) (main_arg1 : FVec F S8x2048x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x8192x3 : Shape := ⟨3, ![8, 8192, 3]⟩
abbrev S8x2048x3 : Shape := ⟨3, ![8, 2048, 3]⟩
abbrev S_ : Shape := ⟨0, ![]⟩
abbrev S8x8192 : Shape := ⟨2, ![8, 8192]⟩
abbrev S8x8192x1 : Shape := ⟨3, ![8, 8192, 1]⟩
abbrev S8x8192x5 : Shape := ⟨3, ![8, 8192, 5]⟩
abbrev S8x2048 : Shape := ⟨2, ![8, 2048]⟩
abbrev S8x2048x1 : Shape := ⟨3, ![8, 2048, 1]⟩
abbrev S8x2048x5 : Shape := ⟨3, ![8, 2048, 5]⟩
abbrev S8x5x2048 : Shape := ⟨3, ![8, 5, 2048]⟩
abbrev S8x1x128 : Shape := ⟨3, ![8, 1, 128]⟩
abbrev S1x512x5 : Shape := ⟨3, ![1, 512, 5]⟩
abbrev S1x5x2048 : Shape := ⟨3, ![1, 5, 2048]⟩
abbrev S1x1x128 : Shape := ⟨3, ![1, 1, 128]⟩
abbrev S1x1 : Shape := ⟨2, ![1, 1]⟩
abbrev S512x5 : Shape := ⟨2, ![512, 5]⟩
abbrev S5x2048 : Shape := ⟨2, ![5, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x128 : Shape := ⟨2, ![1, 128]⟩
abbrev S8x1x1 : Shape := ⟨3, ![8, 1, 1]⟩
abbrev S8 : Shape := ⟨1, ![8]⟩

abbrev nBuf : Space → Nat
  | .hbm => 39
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x8192x3, .f32⟩
  | .hbm, ⟨3, _⟩ => ⟨S_, .f32⟩
  | .hbm, ⟨4, _⟩ => ⟨S8x8192, .f32⟩
  | .hbm, ⟨5, _⟩ => ⟨S8x8192x1, .f32⟩
  | .hbm, ⟨6, _⟩ => ⟨S_, .f32⟩
  | .hbm, ⟨7, _⟩ => ⟨S8x8192x1, .f32⟩
  | .hbm, ⟨8, _⟩ => ⟨S8x8192x5, .f32⟩
  | .hbm, ⟨9, _⟩ => ⟨S8x2048x3, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S_, .f32⟩
  | .hbm, ⟨16, _⟩ => ⟨S8x2048x3, .f32⟩
  | .hbm, ⟨17, _⟩ => ⟨S8x2048x3, .f32⟩
  | .hbm, ⟨18, _⟩ => ⟨S8x2048x5, .f32⟩
  | .hbm, ⟨19, _⟩ => ⟨S8x5x2048, .f32⟩
  | .hbm, ⟨20, _⟩ => ⟨S8x1x128, .f32⟩
  | .hbm, ⟨21, _⟩ => ⟨S8x1x128, .f32⟩
  | .hbm, ⟨22, _⟩ => ⟨S8x1x1, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S8x1x1, .f32⟩
  | .hbm, ⟨27, _⟩ => ⟨S8, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x512x5, .f32⟩
  | .local _ .vmem, ⟨1, _⟩ => ⟨S1x512x5, .f32⟩
  | .local _ .vmem, ⟨2, _⟩ => ⟨S1x5x2048, .f32⟩
  | .local _ .vmem, ⟨3, _⟩ => ⟨S1x5x2048, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S1x1, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8x8192x3_S8x8192_d2 : S8x8192x3.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  concatenates_S8x8192x3_S8x8192x1_S8x8192x1_S8x8192x5_d2 : Shape.Concatenates [S8x8192x3, S8x8192x1, S8x8192x1] S8x8192x5 2
  reducesTo_S8x2048x3_S8x2048_d2 : S8x2048x3.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S_S8x2048x3 : S_.BroadcastsInDim S8x2048x3 (![] : Fin 0 → Fin S8x2048x3.rank)
  concatenates_S8x2048x3_S8x2048x1_S8x2048x1_S8x2048x5_d2 : Shape.Concatenates [S8x2048x3, S8x2048x1, S8x2048x1] S8x2048x5 2
  transposes_S8x2048x5_S8x5x2048_0_2_1 : S8x2048x5.Transposes [0, 2, 1] S8x5x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x5_S1x512x5_0_0_0 : ∀ a, (![0, 0, 0] : Fin 3 → Nat) a + S1x512x5.size a ≤ S1x512x5.size a
  h_S1x512x5 : 0 < S1x512x5.numel
  shapeCasts_S1x512x5_S512x5 : S1x512x5.ShapeCasts S512x5
  inb_S1x5x2048_S1x5x2048_0_0_0 : ∀ a, (![0, 0, 0] : Fin 3 → Nat) a + S1x5x2048.size a ≤ S1x5x2048.size a
  h_S1x5x2048 : 0 < S1x5x2048.numel
  shapeCasts_S1x5x2048_S5x2048 : S1x5x2048.ShapeCasts S5x2048
  reduces_S512x2048_S512 : S512x2048.Reduces [1] S512
  shapeCasts_S512_S512x1 : S512.ShapeCasts S512x1
  natLt_1_32 : 1 < 32
  reduces_S512x1_S1 : S512x1.Reduces [0] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S512x5_S5x2048_S512x2048_1_0_0_1_n_n_wf : DotDims.WF S512x5 S5x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x5.size a ≤ S8x8192x5.size a
  hwx0_0 : ∀ i : grid0.Coords, EltTy.bits .f32 = 32 ∨ (Rect.block (s := S8x8192x5) S1x512x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x2048.size a ≤ S8x5x2048.size a
  hwx0_1 : ∀ i : grid0.Coords, EltTy.bits .f32 = 32 ∨ (Rect.block (s := S8x5x2048) S1x5x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def dot_S512x5_S5x2048_S512x2048_1_0_0_1_n_n : DotDims S512x5 S5x2048 S512x2048 where
  lhsContracting := [1]
  rhsContracting := [0]
  lhsNonContracting := [0]
  rhsNonContracting := [1]
  lhsBatch := []
  rhsBatch := []
  wf := dot_S512x5_S5x2048_S512x2048_1_0_0_1_n_n_wf

abbrev win0_0 : Pipeline.Window sig grid0 :=
  Pipeline.Window.ofSpec (Memref.whole main_v4) S1x512x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x5x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S_ : Shape := ⟨0, ![]⟩
abbrev S8x8192 : Shape := ⟨2, ![8, 8192]⟩
abbrev S8x2048 : Shape := ⟨2, ![8, 2048]⟩
abbrev S8x8192x1 : Shape := ⟨3, ![8, 8192, 1]⟩
abbrev S8x1x2048 : Shape := ⟨3, ![8, 1, 2048]⟩
abbrev S8x8192x2048 : Shape := ⟨3, ![8, 8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x8192x3, .f32⟩
  | .hbm, ⟨3, _⟩ => ⟨S_, .f32⟩
  | .hbm, ⟨4, _⟩ => ⟨S8x8192, .f32⟩
  | .hbm, ⟨5, _⟩ => ⟨S8x2048x3, .f32⟩
  | .hbm, ⟨6, _⟩ => ⟨S_, .f32⟩
  | .hbm, ⟨7, _⟩ => ⟨S8x2048, .f32⟩
  | .hbm, ⟨8, _⟩ => ⟨S8x8192x1, .f32⟩
  | .hbm, ⟨9, _⟩ => ⟨S8x1x2048, .f32⟩
  | .hbm, ⟨10, _⟩ => ⟨S8x8192x2048, .f32⟩
  | .hbm, ⟨11, _⟩ => ⟨S8x8192x2048, .f32⟩
  | .hbm, ⟨12, _⟩ => ⟨S8x8192x2048, .f32⟩
  | .hbm, ⟨13, _⟩ => ⟨S8x8192x2048, .f32⟩
  | .hbm, ⟨14, _⟩ => ⟨S_, .f32⟩
  | .hbm, ⟨15, _⟩ => ⟨S8x8192x2048, .f32⟩
  | .hbm, ⟨16, _⟩ => ⟨S8x8192x2048, .f32⟩
  | .hbm, ⟨17, _⟩ => ⟨S8x8192x2048, .f32⟩
  | .hbm, ⟨18, _⟩ => ⟨S_, .f32⟩
  | .hbm, ⟨19, _⟩ => ⟨S8x8192x2048, .f32⟩
  | .hbm, ⟨20, _⟩ => ⟨S8x8192x2048, .f32⟩
  | .hbm, ⟨21, _⟩ => ⟨S_, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S8x8192, .f32⟩
  | .hbm, ⟨27, _⟩ => ⟨S_, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8x8192x3_S8x8192_d2 : S8x8192x3.ReducesTo [2] S8x8192
  h_S_ : 0 < S_.numel
  reducesTo_S8x2048x3_S8x2048_d2 : S8x2048x3.ReducesTo [2] S8x2048
  bcast_S8x8192_S8x8192x1_0_1 : S8x8192.BroadcastsInDim S8x8192x1 (![0, 1] : Fin 2 → Fin S8x8192x1.rank)
  bcast_S8x2048_S8x1x2048_0_2 : S8x2048.BroadcastsInDim S8x1x2048 (![0, 2] : Fin 2 → Fin S8x1x2048.rank)
  bcast_S8x8192x1_S8x8192x2048_0_1_2 : S8x8192x1.BroadcastsInDim S8x8192x2048 (![0, 1, 2] : Fin 3 → Fin S8x8192x2048.rank)
  bcast_S8x1x2048_S8x8192x2048_0_1_2 : S8x1x2048.BroadcastsInDim S8x8192x2048 (![0, 1, 2] : Fin 3 → Fin S8x8192x2048.rank)
  bcast_S_S8x8192x2048 : S_.BroadcastsInDim S8x8192x2048 (![] : Fin 0 → Fin S8x8192x2048.rank)
  reducesTo_S8x8192x2048_S8x8192_d2 : S8x8192x2048.ReducesTo [2] S8x8192
  bcast_S_S8x8192 : S_.BroadcastsInDim S8x8192 (![] : Fin 0 → Fin S8x8192.rank)
  reducesTo_S8x8192_S_d0_1 : S8x8192.ReducesTo [0, 1] S_
  dot_S8x8192x3_S8x2048x3_S8x8192x2048_2_2_1_1_0_0_wf : DotDims.WF S8x8192x3 S8x2048x3 S8x8192x2048 [2] [2] [1] [1] [0] [0]

variable [Facts₀]

def dot_S8x8192x3_S8x2048x3_S8x8192x2048_2_2_1_1_0_0 : DotDims S8x8192x3 S8x2048x3 S8x8192x2048 where
  lhsContracting := [2]
  rhsContracting := [2]
  lhsNonContracting := [1]
  rhsNonContracting := [1]
  lhsBatch := [0]
  rhsBatch := [0]
  wf := dot_S8x8192x3_S8x2048x3_S8x8192x2048_2_2_1_1_0_0_wf

class Facts : Prop extends Facts₀ where

variable [Facts]
-- ==== Proof.WordSide.Entry.lean ====
/-
  The kernel's region as the launch finds it (the program as printed, read at any float instance).

  @main is eighteen host lines (the augmented operands: a ↦ [a, 1, |a|²] and b ↦ [-2b, |b|², 1] transposed), the
  region, and seventeen host lines (the two batch sums and the guarded quotient).  This module fixes what the launch
  theorems are stated over: the arrays' contents when the region is entered (the host lines before it applied to the
  launch memory), each window's block at a grid point, the two conditions of the body decided over the 8 × 16 grid
  (first tile of a batch row: the point is ≡ 0 mod 16; last tile: ≡ 15 mod 16), where the two output windows are
  idle (everywhere but at a last tile, where they are stored and written back), and the invariant's shape: the two
  one-word accumulators and the generator register.
-/
import proofs.«147837_j64991445123087_2_alg».proof.Proof.Gen.Kernel.Launch
import proofs.«147837_j64991445123087_2_alg».proof.Proof.Gen.Kernel.Skeleton
import proofs.«147837_j64991445123087_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2]

/-- Core `c`'s buffer contents when the region is entered: the host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' window holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The columns' window holds its block at every point, fetched there (a batch row's first tile) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first tile of its batch row": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of its batch row": the accumulators are broadcast into the output blocks. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev ms0_0 (t : Fin cfg0.N) : Memref sig .tc .vmem S1x512x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: one word each, the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the launch hands the region besides the windows: the two accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.WordSide.RunFirst.lean ====
/-
  The body at the FIRST tile of a batch row (tile index 0): both accumulators are reset to zero, then the tile's two
  sums are added; nothing is stored into the output blocks, which are handed back as they were.  The run is by
  symbolic execution of the body over its payloads; what each accumulator ends with is found by that run, as the
  list of pieces stored into it.
-/
import proofs.«147837_j64991445123087_2_alg».proof.Proof.WordSide.Entry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: the inputs at their blocks, the outputs at anything handed back untouched, the accumulators at anything;
    afterwards each accumulator holds the pieces the body stored. -/
noncomputable def kernelRun0_A (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x512x5 .f32) (x1 : Vec F S1x5x2048 .f32) :
    Σ' (LS0 : List (View.Piece (Elt F) S1x1 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.WordSide.RunMid.lean ====
/-
  The body at a MIDDLE tile of a batch row (tile index 1 … 14): the tile's two sums are added to the accumulators,
  which hold what the tile before left; the output blocks are handed back as they were.
-/
import proofs.«147837_j64991445123087_2_alg».proof.Proof.WordSide.RunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle tile: the accumulators at what the tile before left (`xs0`, `xs1`). -/
noncomputable def kernelRun0_B (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x512x5 .f32) (x1 : Vec F S1x5x2048 .f32) (xs0 xs1 : Vec F S1x1 .f32) :
    Σ' (LS0 : List (View.Piece (Elt F) S1x1 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Gen

end
-- ==== Proof.WordSide.RunLast.lean ====
/-
  The body at the LAST tile of a batch row (tile index 15): the tile's two sums are added to the accumulators, and each
  accumulator's word is then broadcast over its output block, which the pipeline writes back.
-/
import proofs.«147837_j64991445123087_2_alg».proof.Proof.WordSide.RunMid

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last tile: the accumulators at what the tile before left, the outputs at anything; afterwards each output block and
    each accumulator holds the pieces the body stored. -/
noncomputable def kernelRun0_C (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x512x5 .f32) (x1 : Vec F S1x5x2048 .f32) (xs0 xs1 : Vec F S1x1 .f32) :
    Σ' (L2 : List (View.Piece (Elt F) S1x1x128 .f32)) (L3 : List (View.Piece (Elt F) S1x1x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Gen

end
-- ==== Proof.WordSide.Accum.lean ====
/-
  What the two accumulators and the two output blocks hold after each grid point, and the frame of the whole program.

  The grid is 8 batch rows × 16 tiles, visited row by row.  At a row's first tile the accumulators are reset and the
  tile's sums added; at every later tile the tile's sums are added to what the tile before left; at the row's last
  tile each accumulator's word is also broadcast over its output block, and only there is that block written back.
  So the state after point n is defined by recursion on n (`outsAt0`), the invariant between points holds each
  accumulator at that state, and the body obligation is the three runs, one per kind of tile.
-/
import proofs.«147837_j64991445123087_2_alg».proof.Proof.WordSide.RunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

abbrev runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t)
abbrev runB (c : Dev nD) (t : Fin cfg0.N) (h0 : ¬cond0_0 (grid0.coords t)) (h1 : ¬cond0_1 (grid0.coords t)) (xs0 xs1 : Vec F S1x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t) xs0 xs1
abbrev runC (c : Dev nD) (t : Fin cfg0.N) (h0 : ¬cond0_0 (grid0.coords t)) (h1 : cond0_1 (grid0.coords t)) (xs0 xs1 : Vec F S1x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t) xs0 xs1

/-- The state after a point: the two output blocks, then the two accumulators. -/
abbrev St (F : FTy → Type) [FloatOps F] := Vec F S1x1x128 .f32 × Vec F S1x1x128 .f32 × Vec F S1x1 .f32 × Vec F S1x1 .f32

/-- An output block nothing was stored into: a placeholder nobody reads (the window is idle there and not written back). -/
def idle2 : Vec F S1x1x128 .f32 := VO0_2.read (Elt F) (VO0_2.writes (Elt F) VO0_2.junk [])
def idle3 : Vec F S1x1x128 .f32 := VO0_3.read (Elt F) (VO0_3.writes (Elt F) VO0_3.junk [])

/-! ### First tile -/
theorem scover0_A_0 (c : Dev nD) (t : Fin cfg0.N) (h0 : cond0_0 (grid0.coords t)) (h1 : ¬cond0_1 (grid0.coords t)) (y : S1x1.Idx) : ∃ pc ∈ (runA m c t h0 h1).1, y ∈ pc.1.set :=
  View.cover_of_tiledL (runA m c t h0 h1).1 S1x1.size (by sl_kernel_rfl) y
theorem scover0_A_1 (c : Dev nD) (t : Fin cfg0.N) (h0 : cond0_0 (grid0.coords t)) (h1 : ¬cond0_1 (grid0.coords t)) (y : S1x1.Idx) : ∃ pc ∈ (runA m c t h0 h1).2.1, y ∈ pc.1.set :=
  View.cover_of_tiledL (runA m c t h0 h1).2.1 S1x1.size (by sl_kernel_rfl) y
def sout0_A_0 (c : Dev nD) (t : Fin cfg0.N) (h0 : cond0_0 (grid0.coords t)) (h1 : ¬cond0_1 (grid0.coords t)) : Vec F S1x1 .f32 := VS0_0.read (Elt F) (VS0_0.writes (Elt F) VS0_0.junk (runA m c t h0 h1).1)
def sout0_A_1 (c : Dev nD) (t : Fin cfg0.N) (h0 : cond0_0 (grid0.coords t)) (h1 : ¬cond0_1 (grid0.coords t)) : Vec F S1x1 .f32 := VS0_1.read (Elt F) (VS0_1.writes (Elt F) VS0_1.junk (runA m c t h0 h1).2.1)
def tupA (c : Dev nD) (t : Fin cfg0.N) (h0 : cond0_0 (grid0.coords t)) (h1 : ¬cond0_1 (grid0.coords t)) : St F := (idle2, idle3, sout0_A_0 m c t h0 h1, sout0_A_1 m c t h0 h1)

/-! ### Middle tile -/
theorem scover0_B_0 (c : Dev nD) (t : Fin cfg0.N) (h0 : ¬cond0_0 (grid0.coords t)) (h1 : ¬cond0_1 (grid0.coords t)) (xs0 xs1 : Vec F S1x1 .f32) (y : S1x1.Idx) : ∃ pc ∈ (runB m c t h0 h1 xs0 xs1).1, y ∈ pc.1.set :=
  View.cover_of_tiledL (runB m c t h0 h1 xs0 xs1).1 S1x1.size (by sl_kernel_rfl) y
theorem scover0_B_1 (c : Dev nD) (t : Fin cfg0.N) (h0 : ¬cond0_0 (grid0.coords t)) (h1 : ¬cond0_1 (grid0.coords t)) (xs0 xs1 : Vec F S1x1 .f32) (y : S1x1.Idx) : ∃ pc ∈ (runB m c t h0 h1 xs0 xs1).2.1, y ∈ pc.1.set :=
  View.cover_of_tiledL (runB m c t h0 h1 xs0 xs1).2.1 S1x1.size (by sl_kernel_rfl) y
def sout0_B_0 (c : Dev nD) (t : Fin cfg0.N) (h0 : ¬cond0_0 (grid0.coords t)) (h1 : ¬cond0_1 (grid0.coords t)) (xs0 xs1 : Vec F S1x1 .f32) : Vec F S1x1 .f32 := VS0_0.read (Elt F) (VS0_0.writes (Elt F) VS0_0.junk (runB m c t h0 h1 xs0 xs1).1)
def sout0_B_1 (c : Dev nD) (t : Fin cfg0.N) (h0 : ¬cond0_0 (grid0.coords t)) (h1 : ¬cond0_1 (grid0.coords t)) (xs0 xs1 : Vec F S1x1 .f32) : Vec F S1x1 .f32 := VS0_1.read (Elt F) (VS0_1.writes (Elt F) VS0_1.junk (runB m c t h0 h1 xs0 xs1).2.1)
def tupB (c : Dev nD) (t : Fin cfg0.N) (h0 : ¬cond0_0 (grid0.coords t)) (h1 : ¬cond0_1 (grid0.coords t)) (xs0 xs1 : Vec F S1x1 .f32) : St F := (idle2, idle3, sout0_B_0 m c t h0 h1 xs0 xs1, sout0_B_1 m c t h0 h1 xs0 xs1)

/-! ### Last tile -/
theorem cover0_C_2 (c : Dev nD) (t : Fin cfg0.N) (h0 : ¬cond0_0 (grid0.coords t)) (h1 : cond0_1 (grid0.coords t)) (xs0 xs1 : Vec F S1x1 .f32) (y : S1x1x128.Idx) : ∃ pc ∈ (runC m c t h0 h1 xs0 xs1).1, y ∈ pc.1.set :=
  View.cover_of_tiledL (runC m c t h0 h1 xs0 xs1).1 S1x1x128.size (by sl_kernel_rfl) y
theorem cover0_C_3 (c : Dev nD) (t : Fin cfg0.N) (h0 : ¬cond0_0 (grid0.coords t)) (h1 : cond0_1 (grid0.coords t)) (xs0 xs1 : Vec F S1x1 .f32) (y : S1x1x128.Idx) : ∃ pc ∈ (runC m c t h0 h1 xs0 xs1).2.1, y ∈ pc.1.set :=
  View.cover_of_tiledL (runC m c t h0 h1 xs0 xs1).2.1 S1x1x128.size (by sl_kernel_rfl) y
theorem scover0_C_0 (c : Dev nD) (t : Fin cfg0.N) (h0 : ¬cond0_0 (grid0.coords t)) (h1 : cond0_1 (grid0.coords t)) (xs0 xs1 : Vec F S1x1 .f32) (y : S1x1.Idx) : ∃ pc ∈ (runC m c t h0 h1 xs0 xs1).2.2.1, y ∈ pc.1.set :=
  View.cover_of_tiledL (runC m c t h0 h1 xs0 xs1).2.2.1 S1x1.size (by sl_kernel_rfl) y
theorem scover0_C_1 (c : Dev nD) (t : Fin cfg0.N) (h0 : ¬cond0_0 (grid0.coords t)) (h1 : cond0_1 (grid0.coords t)) (xs0 xs1 : Vec F S1x1 .f32) (y : S1x1.Idx) : ∃ pc ∈ (runC m c t h0 h1 xs0 xs1).2.2.2.1, y ∈ pc.1.set :=
  View.cover_of_tiledL (runC m c t h0 h1 xs0 xs1).2.2.2.1 S1x1.size (by sl_kernel_rfl) y
def out0_C_2 (c : Dev nD) (t : Fin cfg0.N) (h0 : ¬cond0_0 (grid0.coords t)) (h1 : cond0_1 (grid0.coords t)) (xs0 xs1 : Vec F S1x1 .f32) : Vec F S1x1x128 .f32 := VO0_2.read (Elt F) (VO0_2.writes (Elt F) VO0_2.junk (runC m c t h0 h1 xs0 xs1).1)
def out0_C_3 (c : Dev nD) (t : Fin cfg0.N) (h0 : ¬cond0_0 (grid0.coords t)) (h1 : cond0_1 (grid0.coords t)) (xs0 xs1 : Vec F S1x1 .f32) : Vec F S1x1x128 .f32 := VO0_3.read (Elt F) (VO0_3.writes (Elt F) VO0_3.junk (runC m c t h0 h1 xs0 xs1).2.1)
def sout0_C_0 (c : Dev nD) (t : Fin cfg0.N) (h0 : ¬cond0_0 (grid0.coords t)) (h1 : cond0_1 (grid0.coords t)) (xs0 xs1 : Vec F S1x1 .f32) : Vec F S1x1 .f32 := VS0_0.read (Elt F) (VS0_0.writes (Elt F) VS0_0.junk (runC m c t h0 h1 xs0 xs1).2.2.1)
def sout0_C_1 (c : Dev nD) (t : Fin cfg0.N) (h0 : ¬cond0_0 (grid0.coords t)) (h1 : cond0_1 (grid0.coords t)) (xs0 xs1 : Vec F S1x1 .f32) : Vec F S1x1 .f32 := VS0_1.read (Elt F) (VS0_1.writes (Elt F) VS0_1.junk (runC m c t h0 h1 xs0 xs1).2.2.2.1)
def tupC (c : Dev nD) (t : Fin cfg0.N) (h0 : ¬cond0_0 (grid0.coords t)) (h1 : cond0_1 (grid0.coords t)) (xs0 xs1 : Vec F S1x1 .f32) : St F :=
  (out0_C_2 m c t h0 h1 xs0 xs1, out0_C_3 m c t h0 h1 xs0 xs1, sout0_C_0 m c t h0 h1 xs0 xs1, sout0_C_1 m c t h0 h1 xs0 xs1)

/-! ## The accumulation -/

/-- The state after the body at position `n`: the kind of tile the closed forms select, run at the point's blocks, the
    accumulators taken from what position `n - 1` left when the tile is not a row's first. -/
def outsAt0 (c : Dev nD) : (n : ℕ) → n < cfg0.N → St F
  | 0, hn => tupA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        tupA m c ⟨n + 1, hn⟩ ((hcond0_0 ⟨n + 1, hn⟩).mpr h0) (fun h => h1 ((hcond0_1 ⟨n + 1, hn⟩).mp h))
    else
      if h1 : (n + 1) % 16 = 15 then
        tupC m c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2
      else
        tupB m c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2

/-- The state the point before left (only consulted at points that are not the first). -/
abbrev prev (c : Dev nD) (t : Fin cfg0.N) : St F := outsAt0 m c (t.val - 1) (Nat.lt_of_le_of_lt (Nat.sub_le _ _) t.isLt)

theorem outsAt0_A (c : Dev nD) (t : Fin cfg0.N) (h0 : t.val % 16 = 0) (h1 : ¬t.val % 16 = 15) :
    outsAt0 m c t.val t.isLt = tupA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = tupB m c t (fun h => h0 ((hcond0_0 t).mp h)) (fun h => h1 ((hcond0_1 t).mp h)) (prev m c t).2.2.1 (prev m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = tupC m c t (fun h => h0 ((hcond0_0 t).mp h)) ((hcond0_1 t).mpr h1) (prev m c t).2.2.1 (prev m c t).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over (both accumulators at anything); afterwards both accumulators at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 2 t (idleAt0_2 t hc1) (noFlush0_2 t hc1)]
      rw [Dat.leavesExact_idle (dats m 0 c) 3 t (idleAt0_3 t hc1) (noFlush0_3 t hc1)]
      rw [outsAt0_A m c t h0 h1]
      unfold tupA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((runA m c t hc0 hc1).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 m c t hc0 hc1)
            · unfold owns; iexists _; isplitr
              swap; · iexact HS1
              ipureintro; exact View.read_writes_of_cover _ _ _ _ _ (scover0_A_1 m c t hc0 hc1)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((runA m c t hc0 hc1).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 m c t hc0 hc1)
            · unfold owns; iexists _; isplitr
              swap; · iexact HS1
              ipureintro; exact View.read_writes_of_cover _ _ _ _ _ (scover0_A_1 m c t hc0 hc1)
          iexact Hg
        isplitl [Ho]; · iexact Ho
        isplitl [H0]; · iexact H0
        isplitl [H1]; · iexact H1
        isplitl [H2]; · iexists _; iexact H2
        iexists _; iexact H3
  · have hc0 : ¬cond0_0 (grid0.coords t) := fun h => h0 ((hcond0_0 t).mp h)
    have hz : t.val ≠ 0 := fun hz => h0 (by rw [hz])
    by_cases h1 : t.val % 16 = 15
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold tupC out0_C_2 out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runC m c t hc0 hc1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 m c t hc0 hc1 _ _)
          · unfold owns; iexists _; isplitr
            swap; · iexact HS1
            ipureintro; exact View.read_writes_of_cover _ _ _ _ _ (scover0_C_1 m c t hc0 hc1 _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 m c t hc0 hc1 _ _)
      · unfold owns; iexists _; isplitr
        swap; · iexact H3
        ipureintro; exact View.read_writes_of_cover _ _ _ _ _ (cover0_C_3 m c t hc0 hc1 _ _)
    · have hc1 : ¬cond0_1 (grid0.coords t) := fun h => h1 ((hcond0_1 t).mp h)
      rw [Dat.leavesExact_idle (dats m 0 c) 2 t (idleAt0_2 t hc1) (noFlush0_2 t hc1)]
      rw [Dat.leavesExact_idle (dats m 0 c) 3 t (idleAt0_3 t hc1) (noFlush0_3 t hc1)]
      rw [outsAt0_B m c t h0 h1]
      unfold tupB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runB m c t hc0 hc1 _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 m c t hc0 hc1 _ _)
          · unfold owns; iexists _; isplitr
            swap; · iexact HS1
            ipureintro; exact View.read_writes_of_cover _ _ _ _ _ (scover0_B_1 m c t hc0 hc1 _ _)
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, with every array of the pipeline at what the proof data computes
    and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Gen

end
-- ==== Proof.WordSide.Kept.lean ====
/-
  The frame: both argument arrays end as launched.  Neither is an array of the pipeline, no host line before the region
  writes one (so the region finds them as launched) and no host line after it does (so they end as the region left
  them).
-/
import proofs.«147837_j64991445123087_2_alg».proof.Proof.WordSide.Accum

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line after the region writes the first argument. -/
theorem W_main_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (c : Dev nD) :
    Pipeline.afterTail₀ cfgs (dats m) 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Every weakly fair execution of @main terminates, nothing faults, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c)⟩) (run_main m ρ)

end Cert.Kernel.Gen

end
-- ==== Proof.IdealSide.Entry.lean ====
/-
  The idealized kernel's region as the launch finds it.

  @main is eighteen host lines (the augmented operands: a ↦ [a, 1, |a|²] and b ↦ [-2b, |b|², 1] transposed), the
  region, and seventeen host lines (the two batch sums and the guarded quotient).  This module fixes what the launch
  theorems are stated over: the arrays' contents when the region is entered (the host lines before it applied to the
  launch memory), each window's block at a grid point, the two conditions of the body decided over the 8 × 16 grid
  (first tile of a batch row: the point is ≡ 0 mod 16; last tile: ≡ 15 mod 16), where the two output windows are
  idle (everywhere but at a last tile, where they are stored and written back), and the invariant's shape: the two
  one-word accumulators and the generator register.
-/
import proofs.«147837_j64991445123087_2_alg».proof.Proof.Gen.KernelIdeal.Launch
import proofs.«147837_j64991445123087_2_alg».proof.Proof.Gen.KernelIdeal.Skeleton
import proofs.«147837_j64991445123087_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2]

/-- Core `c`'s buffer contents when the region is entered: the host lines before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And each writes only its own result buffer, which is no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' window holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The columns' window holds its block at every point, fetched there (a batch row's first tile) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first tile of its batch row": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of its batch row": the accumulators are broadcast into the output blocks. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev ms0_0 (t : Fin cfg0.N) : Memref sig .tc .vmem S1x512x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The two accumulators: one word each, the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- What the launch hands the region besides the windows: the two accumulators at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.IdealSide.RunFirst.lean ====
/-
  The body at the FIRST tile of a batch row (tile index 0): both accumulators are reset to zero, then the tile's two
  sums are added; nothing is stored into the output blocks, which are handed back as they were.  The run is by
  symbolic execution of the body over its payloads; what each accumulator ends with is found by that run, as the
  list of pieces stored into it.
-/
import proofs.«147837_j64991445123087_2_alg».proof.Proof.IdealSide.Entry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: the inputs at their blocks, the outputs at anything handed back untouched, the accumulators at anything;
    afterwards each accumulator holds the pieces the body stored. -/
noncomputable def kernelRun0_A (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1x512x5 .f32) (x1 : Vec F S1x5x2048 .f32) :
    Σ' (LS0 : List (View.Piece (Elt F) S1x1 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.IdealSide.RunMid.lean ====
/-
  The body at a MIDDLE tile of a batch row (tile index 1 … 14): the tile's two sums are added to the accumulators,
  which hold what the tile before left; the output blocks are handed back as they were.
-/
import proofs.«147837_j64991445123087_2_alg».proof.Proof.IdealSide.RunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle tile: the accumulators at what the tile before left (`xs0`, `xs1`). -/
noncomputable def kernelRun0_B (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1x512x5 .f32) (x1 : Vec F S1x5x2048 .f32) (xs0 xs1 : Vec F S1x1 .f32) :
    Σ' (LS0 : List (View.Piece (Elt F) S1x1 .f32)), { LS1 : List (View.Piece (Elt F) S1x1 .f32) //
      ∀ (xi2 xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, fun xi2 xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Gen

end
-- ==== Proof.IdealSide.RunLast.lean ====
/-
  The body at the LAST tile of a batch row (tile index 15): the tile's two sums are added to the accumulators, and each
  accumulator's word is then broadcast over its output block, which the pipeline writes back.
-/
import proofs.«147837_j64991445123087_2_alg».proof.Proof.IdealSide.RunMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last tile: the accumulators at what the tile before left, the outputs at anything; afterwards each output block and
    each accumulator holds the pieces the body stored. -/
noncomputable def kernelRun0_C (c : Dev nD) (i : grid0.Coords) (arg2 : Memref sig .tc .vmem S1x512x5 .f32) (harg2 : arg2.IsWhole) (arg3 : Memref sig .tc .vmem S1x5x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1x512x5 .f32) (x1 : Vec F S1x5x2048 .f32) (xs0 xs1 : Vec F S1x1 .f32) :
    Σ' (L2 : List (View.Piece (Elt F) S1x1x128 .f32)) (L3 : List (View.Piece (Elt F) S1x1x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Gen

end
-- ==== Proof.IdealSide.Accum.lean ====
/-
  What the two accumulators and the two output blocks hold after each grid point, and the frame of the whole program.

  The grid is 8 batch rows × 16 tiles, visited row by row.  At a row's first tile the accumulators are reset and the
  tile's sums added; at every later tile the tile's sums are added to what the tile before left; at the row's last
  tile each accumulator's word is also broadcast over its output block, and only there is that block written back.
  So the state after point n is defined by recursion on n (`outsAt0`), the invariant between points holds each
  accumulator at that state, and the body obligation is the three runs, one per kind of tile.
-/
import proofs.«147837_j64991445123087_2_alg».proof.Proof.IdealSide.RunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

abbrev runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t)
abbrev runB (c : Dev nD) (t : Fin cfg0.N) (h0 : ¬cond0_0 (grid0.coords t)) (h1 : ¬cond0_1 (grid0.coords t)) (xs0 xs1 : Vec F S1x1 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t) xs0 xs1
abbrev runC (c : Dev nD) (t : Fin cfg0.N) (h0 : ¬cond0_0 (grid0.coords t)) (h1 : cond0_1 (grid0.coords t)) (xs0 xs1 : Vec F S1x1 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) h0 h1 (iblk m c 0 t) (iblk m c 1 t) xs0 xs1

/-- The state after a point: the two output blocks, then the two accumulators. -/
abbrev St (F : FTy → Type) [FloatOps F] := Vec F S1x1x128 .f32 × Vec F S1x1x128 .f32 × Vec F S1x1 .f32 × Vec F S1x1 .f32

/-- An output block nothing was stored into: a placeholder nobody reads (the window is idle there and not written back). -/
def idle2 : Vec F S1x1x128 .f32 := VO0_2.read (Elt F) (VO0_2.writes (Elt F) VO0_2.junk [])
def idle3 : Vec F S1x1x128 .f32 := VO0_3.read (Elt F) (VO0_3.writes (Elt F) VO0_3.junk [])

/-! ### First tile -/
theorem scover0_A_0 (c : Dev nD) (t : Fin cfg0.N) (h0 : cond0_0 (grid0.coords t)) (h1 : ¬cond0_1 (grid0.coords t)) (y : S1x1.Idx) : ∃ pc ∈ (runA m c t h0 h1).1, y ∈ pc.1.set :=
  View.cover_of_tiledL (runA m c t h0 h1).1 S1x1.size (by sl_kernel_rfl) y
theorem scover0_A_1 (c : Dev nD) (t : Fin cfg0.N) (h0 : cond0_0 (grid0.coords t)) (h1 : ¬cond0_1 (grid0.coords t)) (y : S1x1.Idx) : ∃ pc ∈ (runA m c t h0 h1).2.1, y ∈ pc.1.set :=
  View.cover_of_tiledL (runA m c t h0 h1).2.1 S1x1.size (by sl_kernel_rfl) y
def sout0_A_0 (c : Dev nD) (t : Fin cfg0.N) (h0 : cond0_0 (grid0.coords t)) (h1 : ¬cond0_1 (grid0.coords t)) : Vec F S1x1 .f32 := VS0_0.read (Elt F) (VS0_0.writes (Elt F) VS0_0.junk (runA m c t h0 h1).1)
def sout0_A_1 (c : Dev nD) (t : Fin cfg0.N) (h0 : cond0_0 (grid0.coords t)) (h1 : ¬cond0_1 (grid0.coords t)) : Vec F S1x1 .f32 := VS0_1.read (Elt F) (VS0_1.writes (Elt F) VS0_1.junk (runA m c t h0 h1).2.1)
def tupA (c : Dev nD) (t : Fin cfg0.N) (h0 : cond0_0 (grid0.coords t)) (h1 : ¬cond0_1 (grid0.coords t)) : St F := (idle2, idle3, sout0_A_0 m c t h0 h1, sout0_A_1 m c t h0 h1)

/-! ### Middle tile -/
theorem scover0_B_0 (c : Dev nD) (t : Fin cfg0.N) (h0 : ¬cond0_0 (grid0.coords t)) (h1 : ¬cond0_1 (grid0.coords t)) (xs0 xs1 : Vec F S1x1 .f32) (y : S1x1.Idx) : ∃ pc ∈ (runB m c t h0 h1 xs0 xs1).1, y ∈ pc.1.set :=
  View.cover_of_tiledL (runB m c t h0 h1 xs0 xs1).1 S1x1.size (by sl_kernel_rfl) y
theorem scover0_B_1 (c : Dev nD) (t : Fin cfg0.N) (h0 : ¬cond0_0 (grid0.coords t)) (h1 : ¬cond0_1 (grid0.coords t)) (xs0 xs1 : Vec F S1x1 .f32) (y : S1x1.Idx) : ∃ pc ∈ (runB m c t h0 h1 xs0 xs1).2.1, y ∈ pc.1.set :=
  View.cover_of_tiledL (runB m c t h0 h1 xs0 xs1).2.1 S1x1.size (by sl_kernel_rfl) y
def sout0_B_0 (c : Dev nD) (t : Fin cfg0.N) (h0 : ¬cond0_0 (grid0.coords t)) (h1 : ¬cond0_1 (grid0.coords t)) (xs0 xs1 : Vec F S1x1 .f32) : Vec F S1x1 .f32 := VS0_0.read (Elt F) (VS0_0.writes (Elt F) VS0_0.junk (runB m c t h0 h1 xs0 xs1).1)
def sout0_B_1 (c : Dev nD) (t : Fin cfg0.N) (h0 : ¬cond0_0 (grid0.coords t)) (h1 : ¬cond0_1 (grid0.coords t)) (xs0 xs1 : Vec F S1x1 .f32) : Vec F S1x1 .f32 := VS0_1.read (Elt F) (VS0_1.writes (Elt F) VS0_1.junk (runB m c t h0 h1 xs0 xs1).2.1)
def tupB (c : Dev nD) (t : Fin cfg0.N) (h0 : ¬cond0_0 (grid0.coords t)) (h1 : ¬cond0_1 (grid0.coords t)) (xs0 xs1 : Vec F S1x1 .f32) : St F := (idle2, idle3, sout0_B_0 m c t h0 h1 xs0 xs1, sout0_B_1 m c t h0 h1 xs0 xs1)

/-! ### Last tile -/
theorem cover0_C_2 (c : Dev nD) (t : Fin cfg0.N) (h0 : ¬cond0_0 (grid0.coords t)) (h1 : cond0_1 (grid0.coords t)) (xs0 xs1 : Vec F S1x1 .f32) (y : S1x1x128.Idx) : ∃ pc ∈ (runC m c t h0 h1 xs0 xs1).1, y ∈ pc.1.set :=
  View.cover_of_tiledL (runC m c t h0 h1 xs0 xs1).1 S1x1x128.size (by sl_kernel_rfl) y
theorem cover0_C_3 (c : Dev nD) (t : Fin cfg0.N) (h0 : ¬cond0_0 (grid0.coords t)) (h1 : cond0_1 (grid0.coords t)) (xs0 xs1 : Vec F S1x1 .f32) (y : S1x1x128.Idx) : ∃ pc ∈ (runC m c t h0 h1 xs0 xs1).2.1, y ∈ pc.1.set :=
  View.cover_of_tiledL (runC m c t h0 h1 xs0 xs1).2.1 S1x1x128.size (by sl_kernel_rfl) y
theorem scover0_C_0 (c : Dev nD) (t : Fin cfg0.N) (h0 : ¬cond0_0 (grid0.coords t)) (h1 : cond0_1 (grid0.coords t)) (xs0 xs1 : Vec F S1x1 .f32) (y : S1x1.Idx) : ∃ pc ∈ (runC m c t h0 h1 xs0 xs1).2.2.1, y ∈ pc.1.set :=
  View.cover_of_tiledL (runC m c t h0 h1 xs0 xs1).2.2.1 S1x1.size (by sl_kernel_rfl) y
theorem scover0_C_1 (c : Dev nD) (t : Fin cfg0.N) (h0 : ¬cond0_0 (grid0.coords t)) (h1 : cond0_1 (grid0.coords t)) (xs0 xs1 : Vec F S1x1 .f32) (y : S1x1.Idx) : ∃ pc ∈ (runC m c t h0 h1 xs0 xs1).2.2.2.1, y ∈ pc.1.set :=
  View.cover_of_tiledL (runC m c t h0 h1 xs0 xs1).2.2.2.1 S1x1.size (by sl_kernel_rfl) y
def out0_C_2 (c : Dev nD) (t : Fin cfg0.N) (h0 : ¬cond0_0 (grid0.coords t)) (h1 : cond0_1 (grid0.coords t)) (xs0 xs1 : Vec F S1x1 .f32) : Vec F S1x1x128 .f32 := VO0_2.read (Elt F) (VO0_2.writes (Elt F) VO0_2.junk (runC m c t h0 h1 xs0 xs1).1)
def out0_C_3 (c : Dev nD) (t : Fin cfg0.N) (h0 : ¬cond0_0 (grid0.coords t)) (h1 : cond0_1 (grid0.coords t)) (xs0 xs1 : Vec F S1x1 .f32) : Vec F S1x1x128 .f32 := VO0_3.read (Elt F) (VO0_3.writes (Elt F) VO0_3.junk (runC m c t h0 h1 xs0 xs1).2.1)
def sout0_C_0 (c : Dev nD) (t : Fin cfg0.N) (h0 : ¬cond0_0 (grid0.coords t)) (h1 : cond0_1 (grid0.coords t)) (xs0 xs1 : Vec F S1x1 .f32) : Vec F S1x1 .f32 := VS0_0.read (Elt F) (VS0_0.writes (Elt F) VS0_0.junk (runC m c t h0 h1 xs0 xs1).2.2.1)
def sout0_C_1 (c : Dev nD) (t : Fin cfg0.N) (h0 : ¬cond0_0 (grid0.coords t)) (h1 : cond0_1 (grid0.coords t)) (xs0 xs1 : Vec F S1x1 .f32) : Vec F S1x1 .f32 := VS0_1.read (Elt F) (VS0_1.writes (Elt F) VS0_1.junk (runC m c t h0 h1 xs0 xs1).2.2.2.1)
def tupC (c : Dev nD) (t : Fin cfg0.N) (h0 : ¬cond0_0 (grid0.coords t)) (h1 : cond0_1 (grid0.coords t)) (xs0 xs1 : Vec F S1x1 .f32) : St F :=
  (out0_C_2 m c t h0 h1 xs0 xs1, out0_C_3 m c t h0 h1 xs0 xs1, sout0_C_0 m c t h0 h1 xs0 xs1, sout0_C_1 m c t h0 h1 xs0 xs1)

/-! ## The accumulation -/

/-- The state after the body at position `n`: the kind of tile the closed forms select, run at the point's blocks, the
    accumulators taken from what position `n - 1` left when the tile is not a row's first. -/
def outsAt0 (c : Dev nD) : (n : ℕ) → n < cfg0.N → St F
  | 0, hn => tupA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        tupA m c ⟨n + 1, hn⟩ ((hcond0_0 ⟨n + 1, hn⟩).mpr h0) (fun h => h1 ((hcond0_1 ⟨n + 1, hn⟩).mp h))
    else
      if h1 : (n + 1) % 16 = 15 then
        tupC m c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2
      else
        tupB m c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2

/-- The state the point before left (only consulted at points that are not the first). -/
abbrev prev (c : Dev nD) (t : Fin cfg0.N) : St F := outsAt0 m c (t.val - 1) (Nat.lt_of_le_of_lt (Nat.sub_le _ _) t.isLt)

theorem outsAt0_A (c : Dev nD) (t : Fin cfg0.N) (h0 : t.val % 16 = 0) (h1 : ¬t.val % 16 = 15) :
    outsAt0 m c t.val t.isLt = tupA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = tupB m c t (fun h => h0 ((hcond0_0 t).mp h)) (fun h => h1 ((hcond0_1 t).mp h)) (prev m c t).2.2.1 (prev m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = tupC m c t (fun h => h0 ((hcond0_0 t).mp h)) ((hcond0_1 t).mpr h1) (prev m c t).2.2.1 (prev m c t).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point what the launch hands over (both accumulators at anything); afterwards both accumulators at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dats m 0 c) 2 t (idleAt0_2 t hc1) (noFlush0_2 t hc1)]
      rw [Dat.leavesExact_idle (dats m 0 c) 3 t (idleAt0_3 t hc1) (noFlush0_3 t hc1)]
      rw [outsAt0_A m c t h0 h1]
      unfold tupA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((runA m c t hc0 hc1).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 m c t hc0 hc1)
            · unfold owns; iexists _; isplitr
              swap; · iexact HS1
              ipureintro; exact View.read_writes_of_cover _ _ _ _ _ (scover0_A_1 m c t hc0 hc1)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((runA m c t hc0 hc1).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 m c t hc0 hc1)
            · unfold owns; iexists _; isplitr
              swap; · iexact HS1
              ipureintro; exact View.read_writes_of_cover _ _ _ _ _ (scover0_A_1 m c t hc0 hc1)
          iexact Hg
        isplitl [Ho]; · iexact Ho
        isplitl [H0]; · iexact H0
        isplitl [H1]; · iexact H1
        isplitl [H2]; · iexists _; iexact H2
        iexists _; iexact H3
  · have hc0 : ¬cond0_0 (grid0.coords t) := fun h => h0 ((hcond0_0 t).mp h)
    have hz : t.val ≠ 0 := fun hz => h0 (by rw [hz])
    by_cases h1 : t.val % 16 = 15
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold tupC out0_C_2 out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runC m c t hc0 hc1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 m c t hc0 hc1 _ _)
          · unfold owns; iexists _; isplitr
            swap; · iexact HS1
            ipureintro; exact View.read_writes_of_cover _ _ _ _ _ (scover0_C_1 m c t hc0 hc1 _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 m c t hc0 hc1 _ _)
      · unfold owns; iexists _; isplitr
        swap; · iexact H3
        ipureintro; exact View.read_writes_of_cover _ _ _ _ _ (cover0_C_3 m c t hc0 hc1 _ _)
    · have hc1 : ¬cond0_1 (grid0.coords t) := fun h => h1 ((hcond0_1 t).mp h)
      rw [Dat.leavesExact_idle (dats m 0 c) 2 t (idleAt0_2 t hc1) (noFlush0_2 t hc1)]
      rw [Dat.leavesExact_idle (dats m 0 c) 3 t (idleAt0_3 t hc1) (noFlush0_3 t hc1)]
      rw [outsAt0_B m c t h0 h1]
      unfold tupB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runB m c t hc0 hc1 _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 m c t hc0 hc1 _ _)
          · unfold owns; iexists _; isplitr
            swap; · iexact HS1
            ipureintro; exact View.read_writes_of_cover _ _ _ _ _ (scover0_B_1 m c t hc0 hc1 _ _)
        iexact Hg
      isplitl [Ho]; · iexact Ho
      isplitl [H0]; · iexact H0
      isplitl [H1]; · iexact H1
      isplitl [H2]; · iexists _; iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, with every array of the pipeline at what the proof data computes
    and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Gen

end
-- ==== Proof.IdealSide.Pieces.lean ====
/-
  What the three runs leave, read as values: each accumulator ends at the tile's update of what it held (the reset
  value zero at a row's first tile), and at a row's last tile each output block is the broadcast of its accumulator.
  Each piece the runs found is one store covering its whole buffer, so the buffer's contents are that store's payload,
  with every load in it read from the buffer it was loaded from.
-/
import proofs.«147837_j64991445123087_2_alg».proof.Proof.IdealSide.Accum
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Middle tile -/
theorem sout_B_0 (c : Dev nD) (t : Fin cfg0.N) (h0 : ¬cond0_0 (grid0.coords t)) (h1 : ¬cond0_1 (grid0.coords t)) (xs0 xs1 : Vec F S1x1 .f32) :
    sout0_B_0 m c t h0 h1 xs0 xs1 = k0_pay7 (iblk m c 0 t) (iblk m c 1 t) xs0 := by
  unfold sout0_B_0
  rw [View.read_writes_eq_canon _ _ _ (scover0_B_0 m c t h0 h1 xs0 xs1)]
  unfold runB kernelRun0_B
  dsimp only
  sl_unfold_words
  rw [View.canon_unit_zero hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]
theorem sout_B_1 (c : Dev nD) (t : Fin cfg0.N) (h0 : ¬cond0_0 (grid0.coords t)) (h1 : ¬cond0_1 (grid0.coords t)) (xs0 xs1 : Vec F S1x1 .f32) :
    sout0_B_1 m c t h0 h1 xs0 xs1 = k0_pay8 (iblk m c 0 t) (iblk m c 1 t) xs1 := by
  unfold sout0_B_1
  rw [View.read_writes_eq_canon _ _ _ (scover0_B_1 m c t h0 h1 xs0 xs1)]
  unfold runB kernelRun0_B
  dsimp only
  sl_unfold_words
  rw [View.canon_unit_zero hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]

/-! ## First tile -/
theorem sout_A_0 (c : Dev nD) (t : Fin cfg0.N) (h0 : cond0_0 (grid0.coords t)) (h1 : ¬cond0_1 (grid0.coords t)) :
    sout0_A_0 m c t h0 h1 = k0_pay7 (iblk m c 0 t) (iblk m c 1 t) (k0_pay3 (F := F)) := by
  unfold sout0_A_0
  rw [View.read_writes_eq_canon _ _ _ (scover0_A_0 m c t h0 h1)]
  unfold runA kernelRun0_A
  dsimp only
  sl_unfold_words
  rw [View.canon_cons_unit_zero (S := S1x1) hz2]
  simp only [View.readCov_unit_zero (S := S1x1) _ hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]
theorem sout_A_1 (c : Dev nD) (t : Fin cfg0.N) (h0 : cond0_0 (grid0.coords t)) (h1 : ¬cond0_1 (grid0.coords t)) :
    sout0_A_1 m c t h0 h1 = k0_pay8 (iblk m c 0 t) (iblk m c 1 t) (k0_pay4 (F := F)) := by
  unfold sout0_A_1
  rw [View.read_writes_eq_canon _ _ _ (scover0_A_1 m c t h0 h1)]
  unfold runA kernelRun0_A
  dsimp only
  sl_unfold_words
  rw [View.canon_cons_unit_zero (S := S1x1) hz2]
  simp only [View.readCov_unit_zero (S := S1x1) _ hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]

/-! ## Last tile -/
theorem sout_C_0 (c : Dev nD) (t : Fin cfg0.N) (h0 : ¬cond0_0 (grid0.coords t)) (h1 : cond0_1 (grid0.coords t)) (xs0 xs1 : Vec F S1x1 .f32) :
    sout0_C_0 m c t h0 h1 xs0 xs1 = k0_pay7 (iblk m c 0 t) (iblk m c 1 t) xs0 := by
  unfold sout0_C_0
  rw [View.read_writes_eq_canon _ _ _ (scover0_C_0 m c t h0 h1 xs0 xs1)]
  unfold runC kernelRun0_C
  dsimp only
  sl_unfold_words
  rw [View.canon_unit_zero hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]
theorem sout_C_1 (c : Dev nD) (t : Fin cfg0.N) (h0 : ¬cond0_0 (grid0.coords t)) (h1 : cond0_1 (grid0.coords t)) (xs0 xs1 : Vec F S1x1 .f32) :
    sout0_C_1 m c t h0 h1 xs0 xs1 = k0_pay8 (iblk m c 0 t) (iblk m c 1 t) xs1 := by
  unfold sout0_C_1
  rw [View.read_writes_eq_canon _ _ _ (scover0_C_1 m c t h0 h1 xs0 xs1)]
  unfold runC kernelRun0_C
  dsimp only
  sl_unfold_words
  rw [View.canon_unit_zero hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]
theorem out_C_2 (c : Dev nD) (t : Fin cfg0.N) (h0 : ¬cond0_0 (grid0.coords t)) (h1 : cond0_1 (grid0.coords t)) (xs0 xs1 : Vec F S1x1 .f32) :
    out0_C_2 m c t h0 h1 xs0 xs1 = k0_pay1 (k0_pay7 (iblk m c 0 t) (iblk m c 1 t) xs0) := by
  unfold out0_C_2
  rw [View.read_writes_eq_canon _ _ _ (cover0_C_2 m c t h0 h1 xs0 xs1)]
  unfold runC kernelRun0_C
  dsimp only
  sl_unfold_words
  rw [View.canon_unit_zero hz3]
  simp only [View.readCov_unit_zero (S := S1x1) _ hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]
theorem out_C_3 (c : Dev nD) (t : Fin cfg0.N) (h0 : ¬cond0_0 (grid0.coords t)) (h1 : cond0_1 (grid0.coords t)) (xs0 xs1 : Vec F S1x1 .f32) :
    out0_C_3 m c t h0 h1 xs0 xs1 = k0_pay2 (k0_pay8 (iblk m c 0 t) (iblk m c 1 t) xs1) := by
  unfold out0_C_3
  rw [View.read_writes_eq_canon _ _ _ (cover0_C_3 m c t h0 h1 xs0 xs1)]
  unfold runC kernelRun0_C
  dsimp only
  sl_unfold_words
  rw [View.canon_unit_zero hz3]
  simp only [View.readCov_unit_zero (S := S1x1) _ hz2]
  simp only [View.readAt_eq_ld, (hs0_0 t).read_unread, (hs0_1 t).read_unread, (Memref.isWhole_whole cc0_scratch0).read_unread, (Memref.isWhole_whole cc0_scratch1).read_unread, View.ld_unit_zero (S := S1x1) hz2, View.ld_unit_zero (S := S1x512x5) hz3, View.ld_unit_zero (S := S1x5x2048) hz3]

end Cert.KernelIdeal.Gen

end
-- ==== Proof.IdealSide.Blocks.lean ====
/-
  Where a grid point's blocks sit in their arrays.  Point t is tile t mod 16 of batch row t div 16: the rows' block is
  rows 512·(t mod 16) … of batch t div 16 of the [8, 8192, 5] operand, the columns' block is the whole [5, 2048] slab
  of that batch, and each output block is the [1, 128] row of that batch.
-/
import proofs.«147837_j64991445123087_2_alg».proof.Proof.IdealSide.Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps in closed form, decided over the 128 points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- An entry of the rows' block is the entry of the augmented rows at batch t div 16, row 512·(t mod 16) + r. -/
theorem iblk0_apply (c : Dev nD) (t : Fin cfg0.N) (y : S1x512x5.Idx) (i : S8x8192x5.Idx)
    (h0 : (i 0).val = t.val / 16) (h1 : (i 1).val = 512 * (t.val % 16) + (y 1).val) (h2 : (i 2).val = (y 2).val) :
    (iblk m c 0 t : Vec F S1x512x5 .f32) y = (V m c main_v4 : S8x8192x5.Idx → Elt F .f32) i := by
  obtain ⟨e0, e1, e2, -⟩ := idx_facts t
  unfold iblk
  rw [View.read_apply]
  show V m c main_v4 (((cfg0.win 0).blk t).view.emb y) = V m c main_v4 i
  congr 1
  funext a; apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 512 + 1 * (y 1).val = (i 1).val; omega
  | ⟨2, _⟩ => show win0_0.index t (2 : Fin 3) * 5 + 1 * (y 2).val = (i 2).val; omega

/-- An entry of the columns' block is the entry of the augmented, transposed columns at batch t div 16. -/
theorem iblk1_apply (c : Dev nD) (t : Fin cfg0.N) (y : S1x5x2048.Idx) (i : S8x5x2048.Idx)
    (h0 : (i 0).val = t.val / 16) (h1 : (i 1).val = (y 1).val) (h2 : (i 2).val = (y 2).val) :
    (iblk m c 1 t : Vec F S1x5x2048 .f32) y = (V m c main_v12 : S8x5x2048.Idx → Elt F .f32) i := by
  obtain ⟨-, -, -, e0, e1, e2, -⟩ := idx_facts t
  unfold iblk
  rw [View.read_apply]
  show V m c main_v12 (((cfg0.win 1).blk t).view.emb y) = V m c main_v12 i
  congr 1
  funext a; apply Fin.ext
  match a with
  | ⟨0, _⟩ => show win0_1.index t (0 : Fin 3) * 1 + 1 * (y 0).val = (i 0).val; have hy : (y 0).val < 1 := (y 0).isLt; omega
  | ⟨1, _⟩ => show win0_1.index t (1 : Fin 3) * 5 + 1 * (y 1).val = (i 1).val; omega
  | ⟨2, _⟩ => show win0_1.index t (2 : Fin 3) * 2048 + 1 * (y 2).val = (i 2).val; omega

end Cert.KernelIdeal.Gen

end
-- ==== Proof.IdealSide.Kept.lean ====
/-
  The frame: both argument arrays end as launched.  Neither is an array of the pipeline, no host line before the region
  writes one (so the region finds them as launched) and no host line after it does (so they end as the region left
  them).
-/
import proofs.«147837_j64991445123087_2_alg».proof.Proof.IdealSide.Accum

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line after the region writes the first argument. -/
theorem W_main_arg0 (c : Dev nD) :
    Pipeline.afterTail₀ cfgs (dats m) 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (c : Dev nD) :
    Pipeline.afterTail₀ cfgs (dats m) 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Every weakly fair execution of @main terminates, nothing faults, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c)⟩) (run_main m ρ)

end Cert.KernelIdeal.Gen

end
-- ==== Proof.Spec.lean ====
/-
  The mathematics both programs compute, stated once over the two argument arrays.

  a : [8, 8192, 3] and b : [8, 2048, 3] are two batches of point clouds.  For a point a(β, n) the squared distance to
  its nearest point of b(β, ·) is taken through the expansion |a|² + |b|² − 2 a·b, clamped at zero.  The reference
  clamps every pair and then takes the minimum over the 2048 candidates; the kernel contracts the augmented rows
  [a, 1, |a|²] · [−2b, |b|², 1] (five terms), takes the minimum, and clamps once.  A point counts when its distance is
  below the threshold; the result is the sum of the counted distances over the number of counted points plus ε, and
  zero when nothing counts.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

abbrev SA : Shape := ⟨3, ![8, 8192, 3]⟩
abbrev SB : Shape := ⟨3, ![8, 2048, 3]⟩
abbrev S0 : Shape := ⟨0, ![]⟩

/-- The threshold (the f32 nearest 0.05) and ε (the f32 nearest 10⁻⁶): the same words in both programs, never evaluated. -/
def thr : EReal := Ideal.ofBits .f32 0x3D4CCCCD#32
def eps : EReal := Ideal.ofBits .f32 0x358637BD#32

/-- A point counts when its distance is below the threshold. -/
def mask (x : EReal) : EReal := if x < thr then 1 else 0

section
variable (a : SA.Idx → EReal) (b : SB.Idx → EReal)

/-- |a(β, n)|², |b(β, j)|² and a(β, n) · b(β, j). -/
def sqA (β : Fin 8) (n : Fin 8192) : EReal := ∑ k : Fin 3, a (ix3 β n k) * a (ix3 β n k)
def sqB (β : Fin 8) (j : Fin 2048) : EReal := ∑ k : Fin 3, b (ix3 β j k) * b (ix3 β j k)
def dotAB (β : Fin 8) (n : Fin 8192) (j : Fin 2048) : EReal := ∑ k : Fin 3, a (ix3 β n k) * b (ix3 β j k)

/-- The reference's distance to the nearest point: every pair clamped at zero, then the minimum. -/
def refDist (β : Fin 8) (n : Fin 8192) : EReal :=
  ⨅ j : Fin 2048, max ((sqA a β n + sqB b β j) - ((2 : ℝ) : EReal) * dotAB a b β n j) 0

/-- The kernel's augmented rows: [a, 1, |a|²] and [−2b, |b|², 1]. -/
def augA (β : Fin 8) (n : Fin 8192) : Fin 5 → EReal :=
  ![a (ix3 β n 0), a (ix3 β n 1), a (ix3 β n 2), 1, sqA a β n]
def augB (β : Fin 8) (j : Fin 2048) : Fin 5 → EReal :=
  ![((-2 : ℝ) : EReal) * b (ix3 β j 0), ((-2 : ℝ) : EReal) * b (ix3 β j 1), ((-2 : ℝ) : EReal) * b (ix3 β j 2), sqB b β j, 1]

/-- The kernel's distance: the five-term contraction, the minimum over the candidates, one clamp. -/
def kerDist (β : Fin 8) (n : Fin 8192) : EReal :=
  max (⨅ j : Fin 2048, ∑ k : Fin 5, augA a β n k * augB b β j k) 0
end

/-- The sum of the counted distances and the number of counted points, for a distance table `D`. -/
def distTotal (D : Fin 8 → Fin 8192 → EReal) : EReal := ∑ β : Fin 8, ∑ n : Fin 8192, D β n * mask (D β n)
def maskTotal (D : Fin 8 → Fin 8192 → EReal) : EReal := ∑ β : Fin 8, ∑ n : Fin 8192, mask (D β n)

/-- The last host lines of both programs, on the two totals as rank-0 arrays:
    1 · (if the count is positive then total / (count + ε) else 0). -/
def guardedMean (ds ms : FVec Ideal S0 .f32) : FVec Ideal S0 .f32 :=
  mulf (constant (F := Ideal) S0 .f32 0x3F800000#32)
    (select (cmpf .ogt ms (constant (F := Ideal) S0 .f32 0x00000000#32))
      (Host.divf ds (addf ms (constant (F := Ideal) S0 .f32 0x358637BD#32)))
      (constant (F := Ideal) S0 .f32 0x00000000#32))

/-- The result both programs are shown to end with, for a distance table `D`. -/
def result (D : Fin 8 → Fin 8192 → EReal) : FVec Ideal S0 .f32 :=
  guardedMean (fun _ => distTotal D) (fun _ => maskTotal D)

end Cert.Chamfer

end
-- ==== Proof.LibMinLaws.lean ====
/-
  Order facts about minima of extended reals, used to compare a minimum taken tile by tile, with a
  monotone map applied once at the end, against one minimum of the mapped values.

  * a fold of `min` from `⊤` over a finite index type is the infimum;
  * the infimum over the first `w·(j+1)` entries of a family on `Fin (w·q)` is the infimum over the first
    `w·j` entries met with the infimum over block `j`;
  * a monotone map commutes with the infimum of a finite non-empty family (the infimum is attained);
  * the square root on the extended reals is monotone.
-/
import Idealize.ShloMosaic.PureOps.Ideal
import Mathlib.Order.ConditionallyCompleteLattice.Finset
import Mathlib.Data.Finset.Fold

noncomputable section

namespace Cert.MinLaws

open Idealize.ShloMosaic

/-- Folding `min` from `⊤` over all of a finite type gives the infimum of the family. -/
theorem fold_min_top {ι : Type} [Fintype ι] (f : ι → EReal) :
    (Finset.univ : Finset ι).fold min ⊤ f = ⨅ k, f k := by
  apply le_antisymm
  · exact le_iInf fun k => (Finset.fold_min_le _).mpr (Or.inr ⟨k, Finset.mem_univ _, le_rfl⟩)
  · exact (Finset.le_fold_min _).mpr ⟨le_top, fun k _ => iInf_le f k⟩

/-- No entry lies before position `0`: the infimum over the empty prefix is `⊤`. -/
theorem iInf_prefix_zero {N : ℕ} (w : ℕ) (h : Fin N → EReal) :
    (⨅ n : Fin N, if n.val < w * 0 then h n else ⊤) = ⊤ :=
  iInf_eq_top.mpr fun n => if_neg (by omega)

/-- The prefix of length `w·(j+1)` is the prefix of length `w·j` followed by block `j`: the infimum over it is
    the smaller of the two infima. -/
theorem iInf_prefix_succ {N : ℕ} (w j : ℕ) (hj : w * (j + 1) ≤ N) (h : Fin N → EReal) :
    (⨅ n : Fin N, if n.val < w * (j + 1) then h n else ⊤)
      = min (⨅ n : Fin N, if n.val < w * j then h n else ⊤)
            (⨅ k : Fin w, h ⟨w * j + k.val, by have := k.isLt; rw [Nat.mul_succ] at hj; omega⟩) := by
  have hw : w * (j + 1) = w * j + w := Nat.mul_succ w j
  apply le_antisymm
  · refine le_min (le_iInf fun n => ?_) (le_iInf fun k => ?_)
    · by_cases hn : n.val < w * j
      · rw [if_pos hn]
        exact iInf_le_of_le n (le_of_eq (if_pos (by omega)))
      · rw [if_neg hn]; exact le_top
    · exact iInf_le_of_le ⟨w * j + k.val, by have := k.isLt; omega⟩
        (le_of_eq (if_pos (by have := k.isLt; show w * j + k.val < w * (j + 1); omega)))
  · refine le_iInf fun n => ?_
    by_cases hn1 : n.val < w * (j + 1)
    · rw [if_pos hn1]
      by_cases hn : n.val < w * j
      · exact (min_le_left _ _).trans (iInf_le_of_le n (le_of_eq (if_pos hn)))
      · exact (min_le_right _ _).trans (iInf_le_of_le ⟨n.val - w * j, by omega⟩
          (le_of_eq (congrArg h (Fin.ext (by show w * j + (n.val - w * j) = n.val; omega)))))
    · rw [if_neg hn1]; exact le_top

/-- When the prefix is everything, the guard disappears. -/
theorem iInf_prefix_all {N : ℕ} (L : ℕ) (hL : N ≤ L) (h : Fin N → EReal) :
    (⨅ n : Fin N, if n.val < L then h n else ⊤) = ⨅ n : Fin N, h n :=
  iInf_congr fun n => if_pos (lt_of_lt_of_le n.isLt hL)

/-- A monotone map of the extended reals commutes with the infimum of a finite non-empty family: the
    infimum is one of the family's values. -/
theorem map_iInf_of_monotone {ι : Type} [Finite ι] [Nonempty ι] {f : EReal → EReal} (hf : Monotone f)
    (a : ι → EReal) : f (⨅ i, a i) = ⨅ i, f (a i) := by
  obtain ⟨i₀, h⟩ := exists_eq_ciInf_of_finite (f := a)
  apply le_antisymm
  · exact le_iInf fun i => hf (iInf_le a i)
  · rw [← h]; exact iInf_le (fun i => f (a i)) i₀

/-- The square root of the extended reals (`⊥` below zero, `√⊤ = ⊤`) is monotone. -/
theorem sqrt_mono : Monotone Ideal.sqrt := by
  intro x y hxy
  induction x using EReal.rec with
  | bot => rw [Ideal.sqrt_bot]; exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

/-- Adding a fixed value, clamping below at zero and taking the square root is monotone. -/
theorem sqrt_clamp_add_mono (k z : EReal) : Monotone fun x : EReal => Ideal.sqrt (max (x + k) z) :=
  fun _ _ h => sqrt_mono (max_le_max (add_le_add h le_rfl) le_rfl)

end Cert.MinLaws

end
-- ==== Proof.LibFloatWords.lean ====
/-
  The extended reals a few f32 words denote: +∞, 2 and -2.
-/
import Idealize.ShloMosaic.PureOps.Ideal

noncomputable section

namespace Cert.FloatWords

open Idealize.ShloMosaic

/-- The word of f32's `+inf` denotes `⊤`. -/
theorem ofBits_inf : Ideal.ofBits .f32 0x7F800000#32 = ⊤ := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

end Cert.FloatWords

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMin.lean ====
/-
  GENERAL lemmas: a least-value reduction over the lane axis of a matrix, started from +infinity, read at a row on the
  extended reals — the infimum of the row's entries — in the two spellings a kernel and a host program give it, at any
  extents. (A fold of the minimum over a finite set does not depend on the order, and from +infinity it is the infimum.)
-/
import proofs.«147837_j64991445123087_2_alg».proof.Proof.LibMinLaws
import proofs.«147837_j64991445123087_2_alg».proof.Proof.LibFloatWords
import proofs.«147837_j64991445123087_2_alg».proof.Proof.LibLayout
import Idealize.ShloMosaic.Lib.ValueIdx
import Idealize.ShloMosaic.PureOps.Ideal.Laws

noncomputable section

open Idealize.ShloMosaic Idealize.ShloMosaic.ValueIdx

namespace Cert.LibLaneMin

/-- The kernel's spelling: a vector reduction by minimum over the lanes, from the word of +infinity, at row `r`. -/
theorem laneMin_apply {a b : ℕ} (v : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (r : Fin a) :
    multiReduction .minimumf [1] ⟨1, ![a]⟩ v 0x7F800000#32 h hφ hacc (ix1 r) = ⨅ k : Fin b, v (ix2 r k) := by
  refine (multiReduction_minimumf_eq_fold v _ h hφ hacc (ix1 r)).trans ?_
  refine (h.fold_filter_drop_single _ _ v (ix1 r)).trans ?_
  refine (congrArg (fun z : EReal => Finset.fold min z (v ∘ h.lift (ix1 r)) Finset.univ) Cert.FloatWords.ofBits_inf).trans ?_
  refine (Cert.MinLaws.fold_min_top _).trans ?_
  exact iInf_congr fun k => congrArg v (Cert.LibLayout.lift_row h r k)

/-- The host's spelling: a one-operand reduce by minimum over the lanes whose initial value is +infinity, at row `r`. -/
theorem hostLaneMin_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (hinit : init (Shape.Idx.first hu) = ⊤) (r : Fin a) :
    Host.reduce (FloatOps.minimumf (F := Ideal) (φ := .f32)) y init h' hu (ix1 r) = ⨅ k : Fin b, y (ix2 r k) := by
  refine (Host.reduce_eq_fold_single FloatOps.minimumf y init h' h hu (ix1 r)).trans ?_
  refine (congrArg (fun z : EReal => Finset.fold min z (y ∘ h.lift (ix1 r)) Finset.univ) hinit).trans ?_
  refine (Cert.MinLaws.fold_min_top _).trans ?_
  exact iInf_congr fun k => congrArg y (Cert.LibLayout.lift_row h r k)

end Cert.LibLaneMin

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.IdealSide.Payloads.lean ====
/-
  The kernel body's arithmetic, read at an index on the extended reals.

  The body receives a block of 512 augmented rows x0 (as [1, 512, 5]) and the 2048 augmented candidate columns x1
  (as [1, 5, 2048]).  Its values are: the clamped nearest distance of each row — the five-term contraction, the
  minimum over the 2048 candidates, one clamp at zero —, the indicator of that distance being below the threshold,
  and the two running totals: the old total plus the sum of the counted distances, and the old count plus the
  number of counted rows.  The first grid step stores zeros; the last one spreads each total over 128 lanes.
-/
import proofs.«147837_j64991445123087_2_alg».proof.Proof.Gen.KernelIdeal.Skeleton
import proofs.«147837_j64991445123087_2_alg».proof.Proof.Spec
import proofs.«147837_j64991445123087_2_alg».proof.Proof.LibLaneMin
import proofs.«147837_j64991445123087_2_alg».proof.Proof.LibMatmulRows
import proofs.«147837_j64991445123087_2_alg».proof.Proof.LibLayout
import Idealize.ShloMosaic.Lib.ValueLayout
import Idealize.ShloMosaic.Lib.ValueIdx
import Idealize.ShloMosaic.PureOps.Ideal.Laws

noncomputable section

namespace Cert.Chamfer.Pay

open Cert.KernelIdeal Cert.KernelIdeal.Gen Idealize.ShloMosaic Idealize.ShloMosaic.ValueIdx
open scoped BigOperators

/-- The product of the block's rows with the candidate columns, into the zero accumulator, at (p, q): the five-term
    contraction. -/
theorem prod_apply (l : FVec Ideal S512x5 .f32) (c : FVec Ideal S5x2048 .f32) (p : Fin 512) (q : Fin 2048) :
    matmul dot_S512x5_S5x2048_S512x2048_1_0_0_1_n_n (some .fp32) l c
        (constant (F := Ideal) S512x2048 .f32 0x00000000#32) (ix2 p q)
      = ∑ k : Fin 5, l (ix2 p k) * c (ix2 k q) :=
  (Ideal.matmul_constant_zero_apply dot_S512x5_S5x2048_S512x2048_1_0_0_1_n_n (some .fp32) l c (ix2 p q)).trans
    (Cert.LibMatmulRows.contraction_rows dot_S512x5_S5x2048_S512x2048_1_0_0_1_n_n rfl rfl
      (fun _ _ => rfl) (fun _ _ => rfl) (fun _ _ => rfl) (fun _ _ => rfl) l c p q)

/-- The minimum over the lanes from +infinity, kept as a column, at row r: the infimum of the row's entries. -/
theorem colMin_apply (v : FVec Ideal S512x2048 .f32) (r : Fin 512) :
    shapeCast S512x1 (multiReduction (F := Ideal) .minimumf [1] S512 v 0x7F800000#32 reduces_S512x2048_S512 (.inl rfl) rfl)
        shapeCasts_S512_S512x1 (ix2 r 0)
      = ⨅ j : Fin 2048, v (ix2 r j) :=
  (Cert.LibLayout.shapeCast_a_a1_apply _ shapeCasts_S512_S512x1 r 0).trans
    (Cert.LibLaneMin.laneMin_apply v reduces_S512x2048_S512 (.inl rfl) rfl r)

/-- The clamped nearest distance of row r of the block. -/
theorem pay5_apply (x0 : Vec Ideal S1x512x5 .f32) (x1 : Vec Ideal S1x5x2048 .f32) (r : Fin 512) :
    k0_pay5 (F := Ideal) x0 x1 (ix2 r 0)
      = max (⨅ j : Fin 2048, ∑ k : Fin 5, x0 (ix3 0 r k) * x1 (ix3 0 k j)) 0 := by
  refine (maximumf_apply (s := S512x1) (φ := .f32) _ _ (ix2 r 0)).trans ?_
  refine congrArg₂ max ?_ ?_
  · refine (colMin_apply _ r).trans (iInf_congr fun j => ?_)
    refine (prod_apply _ _ r j).trans (Finset.sum_congr rfl fun k _ => ?_)
    rw [shapeCast_1ab_ab_apply, shapeCast_1ab_ab_apply]
  · exact Ideal.ofBits_zero_f32

/-- The comparison word of x < t, widened to 32 bits and read as a signed integer: one when x < t, zero otherwise. -/
theorem maskWord (x t : EReal) :
    ((((Ideal.cmp .olt x t).setWidth 32).toInt : ℝ) : EReal) = if x < t then 1 else 0 := by
  show ((((BitVec.ofBool (decide (x < t))).setWidth 32).toInt : ℝ) : EReal) = _
  by_cases h : x < t
  · have h1 : ((BitVec.ofBool true).setWidth 32).toInt = 1 := by decide
    rw [if_pos h, decide_eq_true h, h1, Int.cast_one, EReal.coe_one]
  · have h0 : ((BitVec.ofBool false).setWidth 32).toInt = 0 := by decide
    rw [if_neg h, decide_eq_false h, h0, Int.cast_zero, EReal.coe_zero]

/-- A column compared with the threshold, the comparison words widened and read as signed integers: at row r, the
    indicator of the column's entry being below the threshold. -/
theorem maskCol_apply (a : FVec Ideal S512x1 .f32) (r : Fin 512) :
    sitofp (F := Ideal) .f32
        (extui 32 (cmpf .olt a (broadcast S512x1 (Scalar.ofBits (F := Ideal) .f32 0x3D4CCCCD#32))) natLt_1_32) (ix2 r 0)
      = Cert.Chamfer.mask (a (ix2 r 0)) :=
  maskWord (a (ix2 r 0)) Cert.Chamfer.thr

/-- The indicator of row r: whether its clamped nearest distance is below the threshold. -/
theorem pay6_apply (x0 : Vec Ideal S1x512x5 .f32) (x1 : Vec Ideal S1x5x2048 .f32) (r : Fin 512) :
    k0_pay6 (F := Ideal) x0 x1 (ix2 r 0) = Cert.Chamfer.mask (k0_pay5 (F := Ideal) x0 x1 (ix2 r 0)) := by
  unfold k0_pay6
  exact maskCol_apply (k0_pay5 (F := Ideal) x0 x1) r

/-- With the row put back on the summed axis, the one index of the column total is (k, 0). -/
theorem lift_col (h : Shape.Reduces S512x1 [0] S1) (k : Fin 512) : h.lift (ix1 0) k = ix2 k 0 := by
  funext c
  refine Fin.ext ?_
  match c with
  | ⟨0, _⟩ => rfl
  | ⟨1, _⟩ => rfl

/-- The sum over the 512 rows of a column, from zero, kept as a [1, 1] array: the sum of the column's entries. -/
theorem colSum_apply (v : FVec Ideal S512x1 .f32) :
    shapeCast S1x1 (multiReduction (F := Ideal) .add [0] S1 v 0x00000000#32 reduces_S512x1_S1 (.inl rfl) rfl)
        shapeCasts_S1_S1x1 (ix2 0 0)
      = ∑ r : Fin 512, v (ix2 r 0) :=
  (Cert.LibLayout.shapeCast_a_a1_apply _ shapeCasts_S1_S1x1 0 0).trans
    ((Ideal.multiReduction_add_single v 0x00000000#32 reduces_S512x1_S1 (.inl rfl) rfl (ix1 0)).trans
      (Finset.sum_congr rfl fun k _ => congrArg v (lift_col reduces_S512x1_S1 k)))

/-- The running total of counted distances after this block: the old total plus the block's counted distances. -/
theorem pay7_apply (x0 : Vec Ideal S1x512x5 .f32) (x1 : Vec Ideal S1x5x2048 .f32) (s : Vec Ideal S1x1 .f32) :
    k0_pay7 (F := Ideal) x0 x1 s (ix2 0 0)
      = s (ix2 0 0) + ∑ r : Fin 512, k0_pay5 (F := Ideal) x0 x1 (ix2 r 0) * k0_pay6 (F := Ideal) x0 x1 (ix2 r 0) := by
  unfold k0_pay7
  refine (congrFun (shapeCast_self _ shapeCasts_S1x1_S1x1) (ix2 0 0)).trans ?_
  refine (addf_apply (s := S1x1) (φ := .f32) _ _ (ix2 0 0)).trans ?_
  refine congrArg (fun z : EReal => s (ix2 0 0) + z) ?_
  refine (colSum_apply _).trans (Finset.sum_congr rfl fun r _ => ?_)
  exact mulf_apply (s := S512x1) (φ := .f32) _ _ (ix2 r 0)

/-- The running count after this block: the old count plus the number of counted rows. -/
theorem pay8_apply (x0 : Vec Ideal S1x512x5 .f32) (x1 : Vec Ideal S1x5x2048 .f32) (s : Vec Ideal S1x1 .f32) :
    k0_pay8 (F := Ideal) x0 x1 s (ix2 0 0) = s (ix2 0 0) + ∑ r : Fin 512, k0_pay6 (F := Ideal) x0 x1 (ix2 r 0) := by
  unfold k0_pay8
  refine (congrFun (shapeCast_self _ shapeCasts_S1x1_S1x1) (ix2 0 0)).trans ?_
  refine (addf_apply (s := S1x1) (φ := .f32) _ _ (ix2 0 0)).trans ?_
  exact congrArg (fun z : EReal => s (ix2 0 0) + z) (colSum_apply _)

end Cert.Chamfer.Pay

end
-- ==== Proof.IdealSide.PayloadsOut.lean ====
/-
  The four small stored values of the kernel, read at an index on the extended reals.

  * The two accumulators are reset to the zero word: a one-by-one array of zeros.
  * Each output block is the accumulator's one word repeated over the 128 lanes.
-/
import proofs.«147837_j64991445123087_2_alg».proof.Proof.Gen.KernelIdeal.Skeleton
import proofs.«147837_j64991445123087_2_alg».proof.Proof.Spec
import Idealize.ShloMosaic.Lib.Pipeline.Value
import Idealize.ShloMosaic.Lib.ValueIdx
import Idealize.ShloMosaic.PureOps.Ideal.Laws

noncomputable section

namespace Cert.Chamfer.Pay

open Cert.KernelIdeal Cert.KernelIdeal.Gen Idealize.ShloMosaic Idealize.ShloMosaic.ValueIdx

/-- The first accumulator's reset value is zero. -/
theorem pay3_apply : k0_pay3 (F := Ideal) (ix2 0 0) = 0 := by
  show shapeCast S1x1 (broadcast S1x1 (Scalar.ofBits (F := Ideal) .f32 0x00000000#32)) shapeCasts_S1x1_S1x1 (ix2 0 0) = 0
  rw [shapeCast_self]
  exact Ideal.ofBits_zero_f32

/-- The second accumulator's reset value is zero. -/
theorem pay4_apply : k0_pay4 (F := Ideal) (ix2 0 0) = 0 := by
  show shapeCast S1x1 (broadcast S1x1 (Scalar.ofBits (F := Ideal) .f32 0x00000000#32)) shapeCasts_S1x1_S1x1 (ix2 0 0) = 0
  rw [shapeCast_self]
  exact Ideal.ofBits_zero_f32

/-- One word repeated over the lanes of a block, read at lane l: the word. -/
theorem lanes_apply (v : Vec Ideal S1x1 .f32) (l : Fin 128) :
    shapeCast S1x1x128 (broadcast S1x128 (extractAt ![0, 0] v inpos_S1x1_p0_0)) shapeCasts_S1x128_S1x1x128 (ix3 0 0 l)
      = v (ix2 0 0) := by
  refine (shapeCast_apply _ shapeCasts_S1x128_S1x1x128 (ix3 0 0 l) (ix2 0 l) ?_).trans ?_
  · rw [Shape.rowMajor_val_two, Shape.rowMajor_val_three]
    show 0 * 128 + l.val = (0 * 1 + 0) * 128 + l.val
    omega
  · show v (fun a => ⟨(![0, 0] : Fin 2 → Nat) a, inpos_S1x1_p0_0 a⟩) = v (ix2 0 0)
    exact congrArg v (funext fun a => Fin.ext (by match a with | ⟨0, _⟩ => rfl | ⟨1, _⟩ => rfl))

/-- The first output block holds the first accumulator's word in every lane. -/
theorem pay1_apply (v : Vec Ideal S1x1 .f32) (l : Fin 128) : k0_pay1 (F := Ideal) v (ix3 0 0 l) = v (ix2 0 0) :=
  lanes_apply v l

/-- The second output block holds the second accumulator's word in every lane. -/
theorem pay2_apply (v : Vec Ideal S1x1 .f32) (l : Fin 128) : k0_pay2 (F := Ideal) v (ix3 0 0 l) = v (ix2 0 0) :=
  lanes_apply v l

end Cert.Chamfer.Pay

end
-- ==== Proof.IdealSide.Operands.lean ====
/-
  The two operands the region is launched on, read at an index.

  Before the region the host builds, from the point clouds a : [8, 8192, 3] and b : [8, 2048, 3], the augmented rows
  [a, 1, |a|²] as an [8, 8192, 5] array (a concatenation of a, a column of ones and the column of row sums of squares)
  and the augmented columns [−2b, |b|², 1] transposed to [8, 5, 2048].  Read at coordinates these are the families
  augA and augB of the specification: a concatenation reads the piece whose span holds the last coordinate, a
  column with a unit axis reads its row, a broadcast scalar reads the scalar, the host sum of the squares from the
  zero word is the sum of the three squares, and the words of 1 and −2 denote 1 and −2.
-/
import proofs.«147837_j64991445123087_2_alg».proof.Proof.IdealSide.Entry
import proofs.«147837_j64991445123087_2_alg».proof.Proof.Spec
import proofs.«147837_j64991445123087_2_alg».proof.Proof.LibFloatWords
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.Chamfer.Operands

open Cert.KernelIdeal Cert.KernelIdeal.Gen
open Idealize.ShloMosaic Idealize.ShloMosaic.TcCoe Idealize.ShloMosaic.ValueIdx Idealize.SL.Sem
open Idealize.ShloMosaic.StableHlo

/-- A host operation over a literal family of three references: its result with each operand's contents at its own
    reference, so that the operands' contents can be rewritten in turn. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The host lines' results, one rewrite per operation and reference, the three-operand operation included. -/
macro "host_results" : tactic =>
  `(tactic| (simp only [after_cons, after_nil]
             repeat (first
               | rw [nary3_result] | rw [nullary_result] | rw [unary_result] | rw [binary_result]
               | (rw [nullary_result_ne]; rotate_left; decide)
               | (rw [unary_result_ne]; rotate_left; decide)
               | (rw [binary_result_ne]; rotate_left; decide)
               | (rw [nary_result_ne]; rotate_left; decide))))

variable (m : (ℓ : Loc nD τ sig) → Buf (Elt Ideal) ℓ) (c : Dev nD)

/-! ## Layout operations read at an index given by coordinates -/

section Layout

variable {α : Type} {p q : ℕ}

/-- Over entry (β, n) of a [p, q, r] array summed along its last axis, the index with coordinate k put back is (β, n, k). -/
theorem lift_lane {r : ℕ} (h : Shape.Reduces ⟨3, ![p, q, r]⟩ [2] ⟨2, ![p, q]⟩) (β : Fin p) (n : Fin q) (k : Fin r) :
    h.lift (ix2 β n) k = ix3 β n k := by
  funext d
  refine Fin.ext ?_
  match d with
  | ⟨0, _⟩ => rfl
  | ⟨1, _⟩ => rfl
  | ⟨2, _⟩ => rfl

/-- The host sum of the squares along the last axis of a [p, q, 3] array, at (β, n): the initial value plus the three
    squares. -/
theorem rowSq_apply {u : Shape} (x : FVec Ideal ⟨3, ![p, q, 3]⟩ .f32) (init : u.Idx → Ideal .f32)
    (h' : Shape.ReducesTo ⟨3, ![p, q, 3]⟩ [2] ⟨2, ![p, q]⟩) (h : Shape.Reduces ⟨3, ![p, q, 3]⟩ [2] ⟨2, ![p, q]⟩)
    (hu : 0 < u.numel) (β : Fin p) (n : Fin q) :
    Host.reduceAdd (F := Ideal) (mulf x x) init h' hu (ix2 β n)
      = init (Shape.Idx.first hu) + ∑ k : Fin 3, x (ix3 β n k) * x (ix3 β n k) := by
  simp only [Host.reduceAdd, Ideal.hostReduceAdd_def]
  rw [Ideal.hostReduceAdd_single h' h]
  exact congrArg (_ + ·) (Finset.sum_congr rfl fun k _ => by rw [lift_lane h β n k]; rfl)

/-- A [p, q] array given a trailing unit axis reads, at (β, n, 0), its entry (β, n). -/
theorem keepdims_apply (v : (⟨2, ![p, q]⟩ : Shape).Idx → α)
    (h : (⟨2, ![p, q]⟩ : Shape).BroadcastsInDim ⟨3, ![p, q, 1]⟩ (![0, 1] : Fin 2 → Fin 3)) (β : Fin p) (n : Fin q) (z : Fin 1) :
    broadcastInDim ⟨3, ![p, q, 1]⟩ ![0, 1] h v (ix3 β n z) = v (ix2 β n) := by
  refine broadcastInDim_apply _ h v (ix3 β n z) (ix2 β n) fun ax => ?_
  match ax with
  | ⟨0, _⟩ =>
    show β.val = if p = 1 then 0 else β.val
    split
    · have := β.isLt; omega
    · rfl
  | ⟨1, _⟩ =>
    show n.val = if q = 1 then 0 else n.val
    split
    · have := n.isLt; omega
    · rfl

/-- One value broadcast to a whole array reads that value at every index. -/
theorem splat_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

section Concat
variable (x : (⟨3, ![p, q, 3]⟩ : Shape).Idx → α) (y z : (⟨3, ![p, q, 1]⟩ : Shape).Idx → α)
  (h : Shape.Concatenates [⟨3, ![p, q, 3]⟩, ⟨3, ![p, q, 1]⟩, ⟨3, ![p, q, 1]⟩] ⟨3, ![p, q, 5]⟩ 2) (β : Fin p) (n : Fin q)

/-- Pieces of extents 3, 1, 1 laid along the last axis: coordinates 0, 1, 2 read the first piece. -/
theorem concat_first (k : Fin 3) (k5 : Fin 5) (hk : k5.val = k.val) :
    concatenate ⟨3, ![p, q, 5]⟩ 2 [⟨⟨3, ![p, q, 3]⟩, x⟩, ⟨⟨3, ![p, q, 1]⟩, y⟩, ⟨⟨3, ![p, q, 1]⟩, z⟩] h (ix3 β n k5) = x (ix3 β n k) :=
  concatenate_apply_piece (t := ⟨3, ![p, q, 5]⟩) 2 [⟨⟨3, ![p, q, 3]⟩, x⟩, ⟨⟨3, ![p, q, 1]⟩, y⟩, ⟨⟨3, ![p, q, 1]⟩, z⟩] h (ix3 β n k5) 0 (by show 0 < 3; omega) _ x rfl rfl 0 rfl (ix3 β n k)
    (fun b hb => by
      match b with
      | ⟨0, _⟩ => rfl
      | ⟨1, _⟩ => rfl
      | ⟨2, _⟩ => exact absurd rfl hb)
    (by show 0 + k.val = k5.val; omega)

/-- Coordinate 3 reads the second piece. -/
theorem concat_second :
    concatenate ⟨3, ![p, q, 5]⟩ 2 [⟨⟨3, ![p, q, 3]⟩, x⟩, ⟨⟨3, ![p, q, 1]⟩, y⟩, ⟨⟨3, ![p, q, 1]⟩, z⟩] h (ix3 β n 3) = y (ix3 β n 0) :=
  concatenate_apply_piece (t := ⟨3, ![p, q, 5]⟩) 2 [⟨⟨3, ![p, q, 3]⟩, x⟩, ⟨⟨3, ![p, q, 1]⟩, y⟩, ⟨⟨3, ![p, q, 1]⟩, z⟩] h (ix3 β n 3) 1 (by show 1 < 3; omega) _ y rfl rfl 3 rfl (ix3 β n 0)
    (fun b hb => by
      match b with
      | ⟨0, _⟩ => rfl
      | ⟨1, _⟩ => rfl
      | ⟨2, _⟩ => exact absurd rfl hb)
    rfl

/-- Coordinate 4 reads the third piece. -/
theorem concat_third :
    concatenate ⟨3, ![p, q, 5]⟩ 2 [⟨⟨3, ![p, q, 3]⟩, x⟩, ⟨⟨3, ![p, q, 1]⟩, y⟩, ⟨⟨3, ![p, q, 1]⟩, z⟩] h (ix3 β n 4) = z (ix3 β n 0) :=
  concatenate_apply_piece (t := ⟨3, ![p, q, 5]⟩) 2 [⟨⟨3, ![p, q, 3]⟩, x⟩, ⟨⟨3, ![p, q, 1]⟩, y⟩, ⟨⟨3, ![p, q, 1]⟩, z⟩] h (ix3 β n 4) 2 (by show 2 < 3; omega) _ z rfl rfl 4 rfl (ix3 β n 0)
    (fun b hb => by
      match b with
      | ⟨0, _⟩ => rfl
      | ⟨1, _⟩ => rfl
      | ⟨2, _⟩ => exact absurd rfl hb)
    rfl
end Concat

end Layout

section Swap
variable {α : Type} {p q r : ℕ}

/-- The last two axes exchanged: entry (β, k, j) of the result is entry (β, j, k) of the operand. -/
theorem swap_apply (x : (⟨3, ![p, q, r]⟩ : Shape).Idx → α)
    (h : (⟨3, ![p, q, r]⟩ : Shape).Transposes [0, 2, 1] ⟨3, ![p, r, q]⟩) (β : Fin p) (k : Fin r) (j : Fin q) :
    transpose ⟨3, ![p, r, q]⟩ [0, 2, 1] x h (ix3 β k j) = x (ix3 β j k) :=
  transpose_apply _ x h (ix3 β k j) (ix3 β j k) fun b => by
    match b with
    | ⟨0, _⟩ => rfl
    | ⟨1, _⟩ => rfl
    | ⟨2, _⟩ => rfl
end Swap

/-! ## The first operand: rows [a, 1, |a|²] -/

/-- The first operand's term read at (β, n, k), for any argument array. -/
theorem rowsA_apply (A : FVec Ideal S8x8192x3 .f32) (β : Fin 8) (n : Fin 8192) (k : Fin 5) :
    concatenate S8x8192x5 2
        [⟨S8x8192x3, (A : S8x8192x3.Idx → EReal)⟩,
         ⟨S8x8192x1, broadcastInDim S8x8192x1 ![] bcast_S_S8x8192x1 (constant (F := Ideal) S_ .f32 0x3F800000#32)⟩,
         ⟨S8x8192x1, broadcastInDim S8x8192x1 ![0, 1] bcast_S8x8192_S8x8192x1_0_1
            (Host.reduceAdd (F := Ideal) (mulf A A) (constant (F := Ideal) S_ .f32 0x00000000#32)
              reducesTo_S8x8192x3_S8x8192_d2 h_S_)⟩]
        concatenates_S8x8192x3_S8x8192x1_S8x8192x1_S8x8192x5_d2 (ix3 β n k)
      = Cert.Chamfer.augA A β n k := by
  match k with
  | ⟨0, hk⟩ => exact (concat_first _ _ _ _ β n ⟨0, by omega⟩ ⟨0, hk⟩ rfl).trans rfl
  | ⟨1, hk⟩ => exact (concat_first _ _ _ _ β n ⟨1, by omega⟩ ⟨1, hk⟩ rfl).trans rfl
  | ⟨2, hk⟩ => exact (concat_first _ _ _ _ β n ⟨2, by omega⟩ ⟨2, hk⟩ rfl).trans rfl
  | ⟨3, hk⟩ =>
    refine (concat_second _ _ _ _ β n).trans ?_
    rw [splat_apply]
    exact Ideal.ofBits_one_f32
  | ⟨4, hk⟩ =>
    refine (concat_third _ _ _ _ β n).trans ?_
    rw [keepdims_apply, rowSq_apply A _ _ (by decide) _ β n]
    show Ideal.ofBits .f32 0x00000000#32 + _ = Cert.Chamfer.sqA A β n
    rw [Ideal.ofBits_zero_f32, zero_add]
    rfl

/-! ## The second operand: columns [−2b, |b|², 1] -/

/-- The second operand's term before the exchange of axes, read at (β, j, k), for any argument array. -/
theorem rowsB_apply (B : FVec Ideal S8x2048x3 .f32) (β : Fin 8) (j : Fin 2048) (k : Fin 5) :
    concatenate S8x2048x5 2
        [⟨S8x2048x3, mulf (broadcastInDim S8x2048x3 ![] bcast_S_S8x2048x3 (constant (F := Ideal) S_ .f32 0xC0000000#32)) B⟩,
         ⟨S8x2048x1, broadcastInDim S8x2048x1 ![0, 1] bcast_S8x2048_S8x2048x1_0_1
            (Host.reduceAdd (F := Ideal) (mulf B B) (constant (F := Ideal) S_ .f32 0x00000000#32)
              reducesTo_S8x2048x3_S8x2048_d2 h_S_)⟩,
         ⟨S8x2048x1, broadcastInDim S8x2048x1 ![] bcast_S_S8x2048x1 (constant (F := Ideal) S_ .f32 0x3F800000#32)⟩]
        concatenates_S8x2048x3_S8x2048x1_S8x2048x1_S8x2048x5_d2 (ix3 β j k)
      = Cert.Chamfer.augB B β j k := by
  have scaled : ∀ i : Fin 3,
      mulf (broadcastInDim S8x2048x3 ![] bcast_S_S8x2048x3 (constant (F := Ideal) S_ .f32 0xC0000000#32)) B (ix3 β j i)
        = ((-2 : ℝ) : EReal) * B (ix3 β j i) := fun i => by
    show broadcastInDim S8x2048x3 ![] bcast_S_S8x2048x3 (constant (F := Ideal) S_ .f32 0xC0000000#32) (ix3 β j i) * B (ix3 β j i) = _
    rw [splat_apply]
    show Ideal.ofBits .f32 0xC0000000#32 * _ = _
    rw [Cert.FloatWords.ofBits_neg_two]
  match k with
  | ⟨0, hk⟩ => exact (concat_first _ _ _ _ β j ⟨0, by omega⟩ ⟨0, hk⟩ rfl).trans ((scaled _).trans rfl)
  | ⟨1, hk⟩ => exact (concat_first _ _ _ _ β j ⟨1, by omega⟩ ⟨1, hk⟩ rfl).trans ((scaled _).trans rfl)
  | ⟨2, hk⟩ => exact (concat_first _ _ _ _ β j ⟨2, by omega⟩ ⟨2, hk⟩ rfl).trans ((scaled _).trans rfl)
  | ⟨3, hk⟩ =>
    refine (concat_second _ _ _ _ β j).trans ?_
    rw [keepdims_apply, rowSq_apply B _ _ (by decide) _ β j]
    show Ideal.ofBits .f32 0x00000000#32 + _ = Cert.Chamfer.sqB B β j
    rw [Ideal.ofBits_zero_f32, zero_add]
    rfl
  | ⟨4, hk⟩ =>
    refine (concat_third _ _ _ _ β j).trans ?_
    rw [splat_apply]
    exact Ideal.ofBits_one_f32

/-- The first operand as the region finds it: the rows [a, 1, |a|²]. -/
theorem v4_eq : (V (F := Ideal) m c main_v4 : S8x8192x5.Idx → EReal)
    = concatenate S8x8192x5 2
        [⟨S8x8192x3, (m ((c : Thread nD τ).loc main_arg0) : S8x8192x3.Idx → EReal)⟩,
         ⟨S8x8192x1, broadcastInDim S8x8192x1 ![] bcast_S_S8x8192x1 (constant (F := Ideal) S_ .f32 0x3F800000#32)⟩,
         ⟨S8x8192x1, broadcastInDim S8x8192x1 ![0, 1] bcast_S8x8192_S8x8192x1_0_1
            (Host.reduceAdd (F := Ideal)
              (mulf (m ((c : Thread nD τ).loc main_arg0) : FVec Ideal S8x8192x3 .f32) (m ((c : Thread nD τ).loc main_arg0)))
              (constant (F := Ideal) S_ .f32 0x00000000#32) reducesTo_S8x8192x3_S8x8192_d2 h_S_)⟩]
        concatenates_S8x8192x3_S8x8192x1_S8x8192x1_S8x8192x5_d2 := by
  show StableHlo.after hostOps0 (fun b => m (c, b)) (Proc.devRef .tc main_v4) = _
  host_results
  rfl

/-- The first operand at (β, n, k) is entry k of the augmented row of point (β, n). -/
theorem v4_apply (β : Fin 8) (n : Fin 8192) (k : Fin 5) :
    (V (F := Ideal) m c main_v4 : S8x8192x5.Idx → EReal) (ix3 β n k)
      = Cert.Chamfer.augA (m ((c : Thread nD τ).loc main_arg0)) β n k := by
  rw [v4_eq]
  exact rowsA_apply _ β n k

/-- The second operand as the region finds it: the columns [−2b, |b|², 1], the last two axes exchanged. -/
theorem v12_eq : (V (F := Ideal) m c main_v12 : S8x5x2048.Idx → EReal)
    = transpose S8x5x2048 [0, 2, 1]
        (concatenate S8x2048x5 2
          [⟨S8x2048x3, mulf (broadcastInDim S8x2048x3 ![] bcast_S_S8x2048x3 (constant (F := Ideal) S_ .f32 0xC0000000#32))
              (m ((c : Thread nD τ).loc main_arg1) : FVec Ideal S8x2048x3 .f32)⟩,
           ⟨S8x2048x1, broadcastInDim S8x2048x1 ![0, 1] bcast_S8x2048_S8x2048x1_0_1
              (Host.reduceAdd (F := Ideal)
                (mulf (m ((c : Thread nD τ).loc main_arg1) : FVec Ideal S8x2048x3 .f32) (m ((c : Thread nD τ).loc main_arg1)))
                (constant (F := Ideal) S_ .f32 0x00000000#32) reducesTo_S8x2048x3_S8x2048_d2 h_S_)⟩,
           ⟨S8x2048x1, broadcastInDim S8x2048x1 ![] bcast_S_S8x2048x1 (constant (F := Ideal) S_ .f32 0x3F800000#32)⟩]
          concatenates_S8x2048x3_S8x2048x1_S8x2048x1_S8x2048x5_d2)
        transposes_S8x2048x5_S8x5x2048_0_2_1 := by
  show StableHlo.after hostOps0 (fun b => m (c, b)) (Proc.devRef .tc main_v12) = _
  host_results
  rfl

/-- The second operand at (β, k, j) is entry k of the augmented column of candidate (β, j). -/
theorem v12_apply (β : Fin 8) (k : Fin 5) (j : Fin 2048) :
    (V (F := Ideal) m c main_v12 : S8x5x2048.Idx → EReal) (ix3 β k j)
      = Cert.Chamfer.augB (m ((c : Thread nD τ).loc main_arg1)) β j k := by
  rw [v12_eq, swap_apply]
  exact rowsB_apply _ β j k

end Cert.Chamfer.Operands

end
-- ==== Proof.LibIdxSums.lean ====
/-
  GENERAL lemmas: a sum over the index set of a rank-1 array is the sum over its one coordinate, and a sum over
  the index set of a rank-3 array is the triple sum over its coordinates (any additive commutative monoid).
-/
import Idealize.ShloMosaic.Lib.ValueIdx

noncomputable section

open scoped BigOperators

namespace Cert.LibIdxSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums

end
-- ==== Proof.IdealSide.Tail.lean ====
/-
  The host lines after the region.

  Each of the two output arrays is eight one-row blocks of 128 equal words, one block per batch row.  The lines after
  the region take column 0 of each array as a vector of eight entries and sum it from zero (the sum over the batch of
  the rows' totals), and end with the guarded quotient of the two sums: 1 · (if the count is positive then
  total / (count + ε) else 0), which is guardedMean of the two sums.
-/
import proofs.«147837_j64991445123087_2_alg».proof.Proof.IdealSide.Accum
import proofs.«147837_j64991445123087_2_alg».proof.Proof.Spec
import proofs.«147837_j64991445123087_2_alg».proof.Proof.LibIdxSums
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx Idealize.ShloMosaic.StableHlo
open Idealize.SL.Sem

/-- Column 0 of an output array as a vector of eight entries, summed from zero. -/
abbrev colSum (G : S8x1x128.Idx → EReal) : FVec Ideal S_ .f32 :=
  Host.reduceAdd (F := Ideal) (φ := .f32)
    (shapeCast S8 (extractStridedSlice S8x1x1 ![0, 0, 0] G slices_S8x1x128_S8x1x1_0_0_0) shapeCasts_S8x1x1_S8)
    (constant (F := Ideal) S_ .f32 0x00000000#32) reducesTo_S8_S_d0 h_S_

/-- It is the sum over the batch of the blocks' first words. -/
theorem colSum_apply (G : S8x1x128.Idx → EReal) (i : S_.Idx) : colSum G i = ∑ β : Fin 8, G (ix3 β 0 0) := by
  simp only [colSum, Host.reduceAdd, Ideal.hostReduceAdd_def]
  rw [Ideal.hostReduceAdd_total reducesTo_S8_S_d0 (fun b => b.elim0)]
  show Ideal.ofBits .f32 0x00000000#32 + _ = _
  rw [Ideal.ofBits_zero_f32, zero_add, Cert.LibIdxSums.sum_idx1]
  refine Finset.sum_congr rfl fun β _ => ?_
  refine (shapeCast_apply _ shapeCasts_S8x1x1_S8 (ix1 β) (ix3 β 0 0) ?_).trans ?_
  · rw [Shape.rowMajor_val_three, Shape.rowMajor_val_one]
    show (β.val * 1 + 0) * 1 + 0 = β.val
    omega
  · refine extractStridedSlice_apply _ G slices_S8x1x128_S8x1x1_0_0_0 (ix3 β 0 0) (ix3 β 0 0) fun a => ?_
    match a with
    | ⟨0, _⟩ => exact (Nat.zero_add _).symm
    | ⟨1, _⟩ => exact (Nat.zero_add _).symm
    | ⟨2, _⟩ => exact (Nat.zero_add _).symm

theorem colSum_eq (G : S8x1x128.Idx → EReal) : colSum G = fun _ => ∑ β : Fin 8, G (ix3 β 0 0) :=
  funext fun i => colSum_apply G i

variable (m : (ℓ : Loc nD τ sig) → Buf (Elt Ideal) ℓ)

/-- The result buffer after the lines that follow the region: guardedMean of the two batch sums of the output arrays'
    first words. -/
theorem tail_value (c : Dev nD) (G2 G3 : S8x1x128.Idx → EReal) (h2 : (dats m 0 c).arrAt 2 cfg0.N = G2)
    (h3 : (dats m 0 c).arrAt 3 cfg0.N = G3) :
    Pipeline.afterTail₀ cfgs (dats m) 0 (V0 m) tailOps c main_v24
      = Cert.Chamfer.guardedMean (fun _ => ∑ β : Fin 8, G2 (ix3 β 0 0)) (fun _ => ∑ β : Fin 8, G3 (ix3 β 0 0)) := by
  unfold Pipeline.afterTail₀
  simp only [tailOps, hostOps1, hostOps1_1, hostOps1_2, List.flatten_cons, List.flatten_nil, List.append_nil, List.cons_append, List.nil_append]
  after_results
  have e2 : Pipeline.withArrays (cfgs 0).spec c (V0 m c) (fun w => (dats m 0 c).arrAt w (cfgs 0).N) (Proc.devRef .tc main_v13_0) = G2 :=
    (Pipeline.withArrays_arr spec0 launch0.win.arr_inj c _ _ 2).trans h2
  have e3 : Pipeline.withArrays (cfgs 0).spec c (V0 m c) (fun w => (dats m 0 c).arrAt w (cfgs 0).N) (Proc.devRef .tc main_v13_1) = G3 :=
    (Pipeline.withArrays_arr spec0 launch0.win.arr_inj c _ _ 3).trans h3
  rw [e2, e3]
  show Cert.Chamfer.guardedMean (colSum G2) (colSum G3) = _
  rw [colSum_eq, colSum_eq]

end Cert.KernelIdeal.Gen

end
-- ==== Proof.RowPrefix.lean ====
/-
  A running sum restarted every 16 steps.  The kernel visits its 8 × 16 grid row by row and resets its accumulators at
  the first tile of each row, so after step n an accumulator holds the sum of the tile terms of the steps
  n − n mod 16, …, n of the current row; after a row's last step, the sum over the row's 16 tiles.
-/
import Mathlib.Algebra.BigOperators.Group.Finset.Basic
import Mathlib.Algebra.BigOperators.Intervals
import Mathlib.Tactic.Ring

namespace Cert.Chamfer

open scoped BigOperators

variable {M : Type*} [AddCommMonoid M]

/-- The sum of `f` over the steps of the current row up to step `n`. -/
def rowPrefix (f : ℕ → M) (n : ℕ) : M := ∑ i ∈ Finset.range (n % 16 + 1), f (n - n % 16 + i)

theorem rowPrefix_zero (f : ℕ → M) : rowPrefix f 0 = f 0 := by
  simp [rowPrefix]

/-- At a row's first step the sum restarts. -/
theorem rowPrefix_first (f : ℕ → M) (n : ℕ) (h : n % 16 = 0) : rowPrefix f n = f n := by
  simp [rowPrefix, h]

/-- At any other step it grows by the step's term. -/
theorem rowPrefix_next (f : ℕ → M) (n : ℕ) (h : (n + 1) % 16 ≠ 0) : rowPrefix f (n + 1) = rowPrefix f n + f (n + 1) := by
  unfold rowPrefix
  have h1 : (n + 1) % 16 = n % 16 + 1 := by omega
  have h2 : n + 1 - (n % 16 + 1) = n - n % 16 := by omega
  rw [h1, h2, Finset.sum_range_succ _ (n % 16 + 1)]
  congr 2
  omega

/-- After a row's last step: the sum over the row's sixteen steps. -/
theorem rowPrefix_last (f : ℕ → M) (β : ℕ) : rowPrefix f (16 * β + 15) = ∑ i ∈ Finset.range 16, f (16 * β + i) := by
  unfold rowPrefix
  have h1 : (16 * β + 15) % 16 = 15 := by omega
  rw [h1]
  refine Finset.sum_congr rfl fun i _ => ?_
  congr 1

end Cert.Chamfer
-- ==== Proof.LibMomentsSums.lean ====
/-
  GENERAL lemmas on finite sums over an additive commutative monoid (so they hold on the extended reals with no
  finiteness hypothesis).

  * A sum over K * b indices is the sum over K consecutive blocks of width b (the index b * k + i of block k,
    place i, runs through every index exactly once).
  * The padded blocked sum: 80 rows, of which only the rows 8 t (t = 0 … 9) are nonzero and row 8 t holds the
    sum of block t of a family of 50000 terms cut into 10 blocks of width 5000; the sum of the 80 rows is the
    sum of the 50000 terms.
  * A sum over 384 indices is the sum of three sums over 128 indices (k, 128 + k, 256 + k).
-/
import Mathlib.Algebra.BigOperators.Fin
import Mathlib.Algebra.BigOperators.Group.Finset.Basic
import Mathlib.Logic.Equiv.Fin.Basic
import Mathlib.Tactic.Ring

namespace Cert.LibMoments

open scoped BigOperators

variable {M : Type*} [AddCommMonoid M]

/-! ## Blocks -/

/-- Place i of block k is an index of the whole. -/
theorem idx_lt {K b : ℕ} (k : Fin K) (i : Fin b) : i.val + b * k.val < K * b := by
  have hk : k.val + 1 ≤ K := k.isLt
  calc i.val + b * k.val < b + b * k.val := Nat.add_lt_add_right i.isLt _
    _ = b * (k.val + 1) := by ring
    _ ≤ b * K := Nat.mul_le_mul_left _ hk
    _ = K * b := Nat.mul_comm _ _

/-- A sum over K * b indices, block by block: (k, i) ↦ i + b * k is a bijection of pairs with indices. -/
theorem sum_fin_mul (K b : ℕ) (f : Fin (K * b) → M) :
    ∑ j : Fin (K * b), f j = ∑ k : Fin K, ∑ i : Fin b, f ⟨i.val + b * k.val, idx_lt k i⟩ := by
  rw [← (finProdFinEquiv (m := K) (n := b)).sum_comp f, Fintype.sum_prod_type]
  rfl

/-! ## The padded blocked sum -/

/-- Place q of the block that row r names (block r / 8) is one of the 50000 indices. -/
theorem pad_lt (r : Fin 80) (q : Fin 5000) : 5000 * (r.val / 8) + q.val < 50000 := by
  have := r.isLt; have := q.isLt; omega

/-- The padded blocked sum, with the rows' entries given as a function G r q and the index relation as a
    hypothesis on values (only asked at the rows that count, r % 8 = 0): any spelling of the index applies. -/
theorem padded_sum_of (g : Fin 50000 → M) (G : Fin 80 → Fin 5000 → M)
    (hG : ∀ (r : Fin 80) (q : Fin 5000) (p : Fin 50000), r.val % 8 = 0 → p.val = 5000 * (r.val / 8) + q.val →
      G r q = g p) :
    ∑ r : Fin 80, (if r.val % 8 = 0 then ∑ q : Fin 5000, G r q else 0) = ∑ p : Fin 50000, g p := by
  have e1 := sum_fin_mul (M := M) 10 8 (fun r : Fin 80 => if r.val % 8 = 0 then ∑ q : Fin 5000, G r q else 0)
  have e2 := sum_fin_mul (M := M) 10 5000 g
  refine (e1.trans ?_).trans e2.symm
  refine Fintype.sum_congr _ _ fun t => ?_
  have h0 : ∀ i : Fin 8, i ≠ 0 → ¬ ((i.val + 8 * t.val) % 8 = 0) := by
    intro i hi h
    apply hi
    apply Fin.ext
    have := i.isLt
    show i.val = 0
    omega
  rw [Finset.sum_eq_single (0 : Fin 8) (fun i _ hi => if_neg (h0 i hi)) (fun h => absurd (Finset.mem_univ _) h)]
  have hz : ((0 : Fin 8).val + 8 * t.val) % 8 = 0 := by
    show (0 + 8 * t.val) % 8 = 0
    omega
  rw [if_pos hz]
  refine Fintype.sum_congr _ _ fun q => hG _ q _ hz ?_
  show q.val + 5000 * t.val = 5000 * ((0 + 8 * t.val) / 8) + q.val
  omega

/-- The padded blocked sum in its literal form. -/
theorem padded_sum (g : Fin 50000 → M) :
    ∑ r : Fin 80, (if r.val % 8 = 0 then ∑ q : Fin 5000, g ⟨5000 * (r.val / 8) + q.val, pad_lt r q⟩ else 0)
      = ∑ p : Fin 50000, g p :=
  padded_sum_of g _ fun _ _ _ _ hp => congrArg g (Fin.ext hp.symm)

/-- The same with any family of proofs of the bound. -/
theorem padded_sum' (g : Fin 50000 → M) (h : ∀ (r : Fin 80) (q : Fin 5000), 5000 * (r.val / 8) + q.val < 50000) :
    ∑ r : Fin 80, (if r.val % 8 = 0 then ∑ q : Fin 5000, g ⟨5000 * (r.val / 8) + q.val, h r q⟩ else 0)
      = ∑ p : Fin 50000, g p :=
  padded_sum g

/-! ## Three blocks of width 128 -/

/-- A sum over 384 indices as three sums over 128, the three families given as functions and the index relations
    as hypotheses on values. -/
theorem sum_384_of (f : Fin 384 → M) (a b c : Fin 128 → M)
    (ha : ∀ (k : Fin 128) (j : Fin 384), j.val = k.val → a k = f j)
    (hb : ∀ (k : Fin 128) (j : Fin 384), j.val = 128 + k.val → b k = f j)
    (hc : ∀ (k : Fin 128) (j : Fin 384), j.val = 256 + k.val → c k = f j) :
    ∑ j : Fin 384, f j = (∑ k : Fin 128, a k) + (∑ k : Fin 128, b k) + ∑ k : Fin 128, c k := by
  have e := sum_fin_mul (M := M) 3 128 f
  refine e.trans ?_
  rw [Fin.sum_univ_three]
  refine congrArg₂ (· + ·) (congrArg₂ (· + ·) ?_ ?_) ?_
  · refine Fintype.sum_congr _ _ fun k => (ha k _ ?_).symm
    show k.val + 128 * 0 = k.val
    omega
  · refine Fintype.sum_congr _ _ fun k => (hb k _ ?_).symm
    show k.val + 128 * 1 = 128 + k.val
    omega
  · refine Fintype.sum_congr _ _ fun k => (hc k _ ?_).symm
    show k.val + 128 * 2 = 256 + k.val
    omega

theorem lt_384_0 (k : Fin 128) : k.val < 384 := by have := k.isLt; omega
theorem lt_384_1 (k : Fin 128) : 128 + k.val < 384 := by have := k.isLt; omega
theorem lt_384_2 (k : Fin 128) : 256 + k.val < 384 := by have := k.isLt; omega

/-- The literal form. -/
theorem sum_384 (f : Fin 384 → M) :
    ∑ j : Fin 384, f j = (∑ k : Fin 128, f ⟨k.val, lt_384_0 k⟩) + (∑ k : Fin 128, f ⟨128 + k.val, lt_384_1 k⟩)
      + ∑ k : Fin 128, f ⟨256 + k.val, lt_384_2 k⟩ :=
  sum_384_of f _ _ _ (fun _ _ h => congrArg f (Fin.ext h.symm)) (fun _ _ h => congrArg f (Fin.ext h.symm))
    (fun _ _ h => congrArg f (Fin.ext h.symm))

end Cert.LibMoments
-- ==== Proof.IdealSide.Value.lean ====
/-
  The idealized kernel's result.

  With a, b the two argument arrays, write D = kerDist a b for the kernel's distance table.  At grid point t (tile
  t mod 16 of batch row β = t div 16) the body's clamped minimum at row r of the tile is D β (512·(t mod 16) + r): the
  rows' block holds the augmented rows [a, 1, |a|²] of those rows and the columns' block the augmented columns
  [−2b, |b|², 1] of batch β.  So the tile adds Σ_r D·mask(D) to the first accumulator and Σ_r mask(D) to the second;
  the accumulators are running sums restarted at each row's first tile; at a row's last tile they hold the row's totals,
  which is what the two output arrays end with at batch β; the host lines after the region add the eight batch totals
  and form the guarded mean.  Sixteen tiles of 512 rows are the 8192 rows, so the two totals are the specification's.
-/
import proofs.«147837_j64991445123087_2_alg».proof.Proof.IdealSide.Blocks
import proofs.«147837_j64991445123087_2_alg».proof.Proof.IdealSide.Kept
import proofs.«147837_j64991445123087_2_alg».proof.Proof.IdealSide.Payloads
import proofs.«147837_j64991445123087_2_alg».proof.Proof.IdealSide.PayloadsOut
import proofs.«147837_j64991445123087_2_alg».proof.Proof.IdealSide.Operands
import proofs.«147837_j64991445123087_2_alg».proof.Proof.IdealSide.Tail
import proofs.«147837_j64991445123087_2_alg».proof.Proof.RowPrefix
import proofs.«147837_j64991445123087_2_alg».proof.Proof.LibMomentsSums
import proofs.«147837_j64991445123087_2_alg».proof.Proof.Spec
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)
open Cert.Chamfer

variable (m : (ℓ : Loc nD τ sig) → Buf (Elt Ideal) ℓ) (ρ : Dev nD → PrngReg)

/-- The two argument arrays on core `c`, and the kernel's distance table over them. -/
abbrev argA (c : Dev nD) : SA.Idx → EReal := m ((c : Thread nD τ).loc main_arg0)
abbrev argB (c : Dev nD) : SB.Idx → EReal := m ((c : Thread nD τ).loc main_arg1)
abbrev Dk (c : Dev nD) : Fin 8 → Fin 8192 → EReal := kerDist (argA m c) (argB m c)

theorem N128 : cfg0.N = 128 := N_0

/-- Point t is tile t mod 16 of batch row t div 16; row r of that tile is row 512·(t mod 16) + r of the batch. -/
def batchOf (t : Fin cfg0.N) : Fin 8 := ⟨t.val / 16, by have h : t.val < 128 := lt_of_lt_of_eq t.isLt N128; omega⟩
def rowOf (t : Fin cfg0.N) (r : Fin 512) : Fin 8192 := ⟨512 * (t.val % 16) + r.val, by have := r.isLt; omega⟩

/-! ## The body's arithmetic at a point -/

/-- The clamped minimum at row r of the tile is the kernel's distance of that row. -/
theorem pay5_at (c : Dev nD) (t : Fin cfg0.N) (r : Fin 512) :
    k0_pay5 (F := Ideal) (iblk m c 0 t) (iblk m c 1 t) (ix2 r 0) = Dk m c (batchOf t) (rowOf t r) := by
  refine (Cert.Chamfer.Pay.pay5_apply (iblk m c 0 t) (iblk m c 1 t) r).trans ?_
  show max _ 0 = max (⨅ j : Fin 2048, ∑ k : Fin 5, augA (argA m c) (batchOf t) (rowOf t r) k * augB (argB m c) (batchOf t) j k) 0
  refine congrArg (fun z : EReal => max z 0) ?_
  refine iInf_congr fun j => Finset.sum_congr rfl fun k _ => ?_
  rw [iblk0_apply m c t (ix3 0 r k) (ix3 (batchOf t) (rowOf t r) k) rfl rfl rfl,
    iblk1_apply m c t (ix3 0 k j) (ix3 (batchOf t) k j) rfl rfl rfl,
    Cert.Chamfer.Operands.v4_apply, Cert.Chamfer.Operands.v12_apply]

/-- What a tile adds to the two accumulators. -/
def termD (c : Dev nD) (t : Fin cfg0.N) : EReal := ∑ r : Fin 512, Dk m c (batchOf t) (rowOf t r) * mask (Dk m c (batchOf t) (rowOf t r))
def termM (c : Dev nD) (t : Fin cfg0.N) : EReal := ∑ r : Fin 512, mask (Dk m c (batchOf t) (rowOf t r))

theorem pay7_at (c : Dev nD) (t : Fin cfg0.N) (s : Vec Ideal S1x1 .f32) :
    k0_pay7 (F := Ideal) (iblk m c 0 t) (iblk m c 1 t) s (ix2 0 0) = s (ix2 0 0) + termD m c t := by
  refine (Cert.Chamfer.Pay.pay7_apply (iblk m c 0 t) (iblk m c 1 t) s).trans ?_
  refine congrArg (fun z : EReal => s (ix2 0 0) + z) ?_
  unfold termD
  refine Finset.sum_congr rfl fun r _ => ?_
  have e5 := pay5_at m c t r
  have e6 := (Cert.Chamfer.Pay.pay6_apply (iblk m c 0 t) (iblk m c 1 t) r).trans (congrArg mask e5)
  exact congrArg₂ (fun x y : EReal => x * y) e5 e6

theorem pay8_at (c : Dev nD) (t : Fin cfg0.N) (s : Vec Ideal S1x1 .f32) :
    k0_pay8 (F := Ideal) (iblk m c 0 t) (iblk m c 1 t) s (ix2 0 0) = s (ix2 0 0) + termM m c t := by
  refine (Cert.Chamfer.Pay.pay8_apply (iblk m c 0 t) (iblk m c 1 t) s).trans ?_
  refine congrArg (fun z : EReal => s (ix2 0 0) + z) ?_
  unfold termM
  refine Finset.sum_congr rfl fun r _ => ?_
  exact (Cert.Chamfer.Pay.pay6_apply (iblk m c 0 t) (iblk m c 1 t) r).trans (congrArg mask (pay5_at m c t r))

/-! ## The accumulators are running sums restarted at each row -/

/-- The tile terms along the steps of the grid (zero past its end). -/
def stepD (c : Dev nD) (p : ℕ) : EReal := if h : p < cfg0.N then termD m c ⟨p, h⟩ else 0
def stepM (c : Dev nD) (p : ℕ) : EReal := if h : p < cfg0.N then termM m c ⟨p, h⟩ else 0

theorem acc_eq (c : Dev nD) : ∀ (n : ℕ) (h : n < cfg0.N),
    (outsAt0 m c n h).2.2.1 (ix2 0 0) = rowPrefix (stepD m c) n ∧ (outsAt0 m c n h).2.2.2 (ix2 0 0) = rowPrefix (stepM m c) n
  | 0, h => by
    rw [outsAt0_A m c ⟨0, h⟩ rfl (fun h' => absurd h' (by decide : ¬(0 % 16 = 15)))]
    unfold tupA; dsimp only
    rw [sout_A_0, sout_A_1, pay7_at, pay8_at, Cert.Chamfer.Pay.pay3_apply, Cert.Chamfer.Pay.pay4_apply, zero_add, zero_add,
      rowPrefix_zero, rowPrefix_zero]
    simp only [stepD, stepM, dif_pos h, and_self]
  | n + 1, h => by
    have ih := acc_eq c n (Nat.lt_of_succ_lt h)
    by_cases h0 : (n + 1) % 16 = 0
    · have h1 : ¬(n + 1) % 16 = 15 := by omega
      rw [outsAt0_A m c ⟨n + 1, h⟩ h0 h1]
      unfold tupA; dsimp only
      rw [sout_A_0, sout_A_1, pay7_at, pay8_at, Cert.Chamfer.Pay.pay3_apply, Cert.Chamfer.Pay.pay4_apply, zero_add, zero_add,
        rowPrefix_first _ _ h0, rowPrefix_first _ _ h0]
      simp only [stepD, stepM, dif_pos h, and_self]
    · by_cases h1 : (n + 1) % 16 = 15
      · rw [outsAt0_C m c ⟨n + 1, h⟩ h0 h1]
        unfold tupC; dsimp only
        rw [sout_C_0, sout_C_1, pay7_at, pay8_at, rowPrefix_next _ _ h0, rowPrefix_next _ _ h0]
        show (outsAt0 m c n _).2.2.1 (ix2 0 0) + _ = _ ∧ (outsAt0 m c n _).2.2.2 (ix2 0 0) + _ = _
        rw [ih.1, ih.2]
        simp only [stepD, stepM, dif_pos h, and_self]
      · rw [outsAt0_B m c ⟨n + 1, h⟩ h0 h1]
        unfold tupB; dsimp only
        rw [sout_B_0, sout_B_1, pay7_at, pay8_at, rowPrefix_next _ _ h0, rowPrefix_next _ _ h0]
        show (outsAt0 m c n _).2.2.1 (ix2 0 0) + _ = _ ∧ (outsAt0 m c n _).2.2.2 (ix2 0 0) + _ = _
        rw [ih.1, ih.2]
        simp only [stepD, stepM, dif_pos h, and_self]

/-- At a row's last tile each output block is the broadcast of its accumulator. -/
theorem out2_at (c : Dev nD) (t : Fin cfg0.N) (h15 : t.val % 16 = 15) (l : Fin 128) :
    (outsAt0 m c t.val t.isLt).1 (ix3 (0 : Fin 1) (0 : Fin 1) l) = (outsAt0 m c t.val t.isLt).2.2.1 (ix2 0 0) := by
  rw [outsAt0_C m c t (by omega) h15]
  unfold tupC; dsimp only
  rw [out_C_2, sout_C_0, Cert.Chamfer.Pay.pay1_apply]
theorem out3_at (c : Dev nD) (t : Fin cfg0.N) (h15 : t.val % 16 = 15) (l : Fin 128) :
    (outsAt0 m c t.val t.isLt).2.1 (ix3 (0 : Fin 1) (0 : Fin 1) l) = (outsAt0 m c t.val t.isLt).2.2.2 (ix2 0 0) := by
  rw [outsAt0_C m c t (by omega) h15]
  unfold tupC; dsimp only
  rw [out_C_3, sout_C_1, Cert.Chamfer.Pay.pay2_apply]

/-! ## The two output arrays after the run -/

/-- Batch β's entry of each output array: the row's sixteen tile terms. -/
def rowTotalD (c : Dev nD) (i : S8x1x128.Idx) : EReal := ∑ j ∈ Finset.range 16, stepD m c (16 * (i 0).val + j)
def rowTotalM (c : Dev nD) (i : S8x1x128.Idx) : EReal := ∑ j ∈ Finset.range 16, stepM m c (16 * (i 0).val + j)

/-- An index of a [1, 1, 128] block is its lane. -/
def laneOf (y : S1x1x128.Idx) : Fin 128 := y 2
theorem y_eq (y : S1x1x128.Idx) : y = ix3 (0 : Fin 1) (0 : Fin 1) (laneOf y) := by
  funext a; apply Fin.ext
  match a with
  | ⟨0, _⟩ => show (y 0).val = 0; have h : (y 0).val < 1 := (y 0).isLt; omega
  | ⟨1, _⟩ => show (y 1).val = 0; have h : (y 1).val < 1 := (y 1).isLt; omega
  | ⟨2, _⟩ => rfl

/-- After a row's last point an accumulator holds the row's sixteen tile terms. -/
theorem acc_last (c : Dev nD) (t : Fin cfg0.N) (h15 : t.val % 16 = 15) :
    rowPrefix (stepD m c) t.val = ∑ j ∈ Finset.range 16, stepD m c (16 * (t.val / 16) + j)
    ∧ rowPrefix (stepM m c) t.val = ∑ j ∈ Finset.range 16, stepM m c (16 * (t.val / 16) + j) := by
  have ht : t.val = 16 * (t.val / 16) + 15 := by omega
  constructor
  · calc rowPrefix (stepD m c) t.val = rowPrefix (stepD m c) (16 * (t.val / 16) + 15) := by rw [← ht]
      _ = _ := rowPrefix_last _ _
  · calc rowPrefix (stepM m c) t.val = rowPrefix (stepM m c) (16 * (t.val / 16) + 15) := by rw [← ht]
      _ = _ := rowPrefix_last _ _

/-- What a row's last point writes back is its batch's slab of the row totals. -/
theorem flushed2_eq (c : Dev nD) (t : Fin cfg0.N) (hf : (cfg0.win 2).flush t = true) :
    (dats m 0 c).flushed 2 t = ((cfg0.win 2).blk t).view.read (Elt Ideal) (rowTotalD m c) := by
  have h15 : t.val % 16 = 15 := (flush0_2 t).mp hf
  obtain ⟨-, -, -, -, -, -, e0, e1, e2, -⟩ := idx_facts t
  show (cfg0.win 2).cut (grid0.coords t) ((dats m 0 c).after 2 t) = _
  rw [after0_2]
  funext y
  rw [View.read_apply]
  show (outsAt0 m c t.val t.isLt).1 y = rowTotalD m c (((cfg0.win 2).blk t).view.emb y)
  rw [y_eq y, out2_at m c t h15, (acc_eq m c t.val t.isLt).1, (acc_last m c t h15).1]
  unfold rowTotalD
  have he : ((((cfg0.win 2).blk t).view.emb (ix3 (0 : Fin 1) (0 : Fin 1) (laneOf y))) 0).val = t.val / 16 := by
    show win0_2.index t (0 : Fin 3) * 1 + 1 * 0 = t.val / 16
    omega
  rw [he]
theorem flushed3_eq (c : Dev nD) (t : Fin cfg0.N) (hf : (cfg0.win 3).flush t = true) :
    (dats m 0 c).flushed 3 t = ((cfg0.win 3).blk t).view.read (Elt Ideal) (rowTotalM m c) := by
  have h15 : t.val % 16 = 15 := (flush0_3 t).mp hf
  obtain ⟨-, -, -, -, -, -, -, -, -, e0, e1, e2⟩ := idx_facts t
  show (cfg0.win 3).cut (grid0.coords t) ((dats m 0 c).after 3 t) = _
  rw [after0_3]
  funext y
  rw [View.read_apply]
  show (outsAt0 m c t.val t.isLt).2.1 y = rowTotalM m c (((cfg0.win 3).blk t).view.emb y)
  rw [y_eq y, out3_at m c t h15, (acc_eq m c t.val t.isLt).2, (acc_last m c t h15).2]
  unfold rowTotalM
  have he : ((((cfg0.win 3).blk t).view.emb (ix3 (0 : Fin 1) (0 : Fin 1) (laneOf y))) 0).val = t.val / 16 := by
    show win0_3.index t (0 : Fin 3) * 1 + 1 * 0 = t.val / 16
    omega
  rw [he]

/-- The last point of batch row β. -/
def lastOf (i : S8x1x128.Idx) : Fin cfg0.N := ⟨16 * (i 0).val + 15, by have h : (i 0).val < 8 := (i 0).isLt; rw [N128]; omega⟩

/-- Every entry of an output array lies in the block its batch row's last point writes back. -/
theorem final2 (c : Dev nD) : (dats m 0 c).arrAt 2 cfg0.N = rowTotalD m c :=
  (dats m 0 c).arrAt_eq_of_cover 2 (rowTotalD m c) (flushed2_eq m c) fun i => by
    have hi0 : (i 0).val < 8 := (i 0).isLt
    have hi1 : (i 1).val < 1 := (i 1).isLt
    have hi2 : (i 2).val < 128 := (i 2).isLt
    obtain ⟨-, -, -, -, -, -, e0, e1, e2, -⟩ := idx_facts (lastOf i)
    have hv : (lastOf i).val = 16 * (i 0).val + 15 := rfl
    refine ⟨lastOf i, (flush0_2 (lastOf i)).mpr (by rw [hv]; omega), ?_⟩
    show i ∈ ((View.whole main_v13_0).slice (win0_2.rect (lastOf i))).set
    rw [View.set_slice_whole, Rect.mem_set_unit]
    intro a
    match a with
    | ⟨0, _⟩ => show win0_2.index (lastOf i) (0 : Fin 3) * 1 ≤ (i 0).val ∧ (i 0).val < win0_2.index (lastOf i) (0 : Fin 3) * 1 + 1; rw [e0, hv]; omega
    | ⟨1, _⟩ => show win0_2.index (lastOf i) (1 : Fin 3) * 1 ≤ (i 1).val ∧ (i 1).val < win0_2.index (lastOf i) (1 : Fin 3) * 1 + 1; rw [e1]; omega
    | ⟨2, _⟩ => show win0_2.index (lastOf i) (2 : Fin 3) * 128 ≤ (i 2).val ∧ (i 2).val < win0_2.index (lastOf i) (2 : Fin 3) * 128 + 128; rw [e2]; omega
theorem final3 (c : Dev nD) : (dats m 0 c).arrAt 3 cfg0.N = rowTotalM m c :=
  (dats m 0 c).arrAt_eq_of_cover 3 (rowTotalM m c) (flushed3_eq m c) fun i => by
    have hi0 : (i 0).val < 8 := (i 0).isLt
    have hi1 : (i 1).val < 1 := (i 1).isLt
    have hi2 : (i 2).val < 128 := (i 2).isLt
    obtain ⟨-, -, -, -, -, -, -, -, -, e0, e1, e2⟩ := idx_facts (lastOf i)
    have hv : (lastOf i).val = 16 * (i 0).val + 15 := rfl
    refine ⟨lastOf i, (flush0_3 (lastOf i)).mpr (by rw [hv]; omega), ?_⟩
    show i ∈ ((View.whole main_v13_1).slice (win0_3.rect (lastOf i))).set
    rw [View.set_slice_whole, Rect.mem_set_unit]
    intro a
    match a with
    | ⟨0, _⟩ => show win0_3.index (lastOf i) (0 : Fin 3) * 1 ≤ (i 0).val ∧ (i 0).val < win0_3.index (lastOf i) (0 : Fin 3) * 1 + 1; rw [e0, hv]; omega
    | ⟨1, _⟩ => show win0_3.index (lastOf i) (1 : Fin 3) * 1 ≤ (i 1).val ∧ (i 1).val < win0_3.index (lastOf i) (1 : Fin 3) * 1 + 1; rw [e1]; omega
    | ⟨2, _⟩ => show win0_3.index (lastOf i) (2 : Fin 3) * 128 ≤ (i 2).val ∧ (i 2).val < win0_3.index (lastOf i) (2 : Fin 3) * 128 + 128; rw [e2]; omega

/-! ## Sixteen tiles of 512 rows are the batch's 8192 rows -/

theorem stepD_at (c : Dev nD) (β : Fin 8) (k : Fin 16) :
    stepD m c (16 * β.val + k.val) = ∑ r : Fin 512, Dk m c β ⟨r.val + 512 * k.val, Cert.LibMoments.idx_lt k r⟩ * mask (Dk m c β ⟨r.val + 512 * k.val, Cert.LibMoments.idx_lt k r⟩) := by
  have hk : 16 * β.val + k.val < cfg0.N := by rw [N128]; omega
  unfold stepD; rw [dif_pos hk]; unfold termD
  refine Finset.sum_congr rfl fun r _ => ?_
  have hb : batchOf ⟨16 * β.val + k.val, hk⟩ = β := Fin.ext (by show (16 * β.val + k.val) / 16 = β.val; omega)
  have hr : rowOf ⟨16 * β.val + k.val, hk⟩ r = ⟨r.val + 512 * k.val, Cert.LibMoments.idx_lt k r⟩ :=
    Fin.ext (by show 512 * ((16 * β.val + k.val) % 16) + r.val = r.val + 512 * k.val; omega)
  rw [hb, hr]
theorem stepM_at (c : Dev nD) (β : Fin 8) (k : Fin 16) :
    stepM m c (16 * β.val + k.val) = ∑ r : Fin 512, mask (Dk m c β ⟨r.val + 512 * k.val, Cert.LibMoments.idx_lt k r⟩) := by
  have hk : 16 * β.val + k.val < cfg0.N := by rw [N128]; omega
  unfold stepM; rw [dif_pos hk]; unfold termM
  refine Finset.sum_congr rfl fun r _ => ?_
  have hb : batchOf ⟨16 * β.val + k.val, hk⟩ = β := Fin.ext (by show (16 * β.val + k.val) / 16 = β.val; omega)
  have hr : rowOf ⟨16 * β.val + k.val, hk⟩ r = ⟨r.val + 512 * k.val, Cert.LibMoments.idx_lt k r⟩ :=
    Fin.ext (by show 512 * ((16 * β.val + k.val) % 16) + r.val = r.val + 512 * k.val; omega)
  rw [hb, hr]

theorem totalD_eq (c : Dev nD) : (∑ β : Fin 8, rowTotalD m c (ix3 β 0 0)) = distTotal (Dk m c) := by
  unfold rowTotalD distTotal
  refine Finset.sum_congr rfl fun β _ => ?_
  show ∑ j ∈ Finset.range 16, stepD m c (16 * β.val + j) = ∑ n : Fin (16 * 512), Dk m c β n * mask (Dk m c β n)
  rw [Finset.sum_range, Cert.LibMoments.sum_fin_mul 16 512]
  exact Finset.sum_congr rfl fun k _ => stepD_at m c β k
theorem totalM_eq (c : Dev nD) : (∑ β : Fin 8, rowTotalM m c (ix3 β 0 0)) = maskTotal (Dk m c) := by
  unfold rowTotalM maskTotal
  refine Finset.sum_congr rfl fun β _ => ?_
  show ∑ j ∈ Finset.range 16, stepM m c (16 * β.val + j) = ∑ n : Fin (16 * 512), mask (Dk m c β n)
  rw [Finset.sum_range, Cert.LibMoments.sum_fin_mul 16 512]
  exact Finset.sum_congr rfl fun k _ => stepM_at m c β k

/-! ## The result -/

/-- The result buffer after the host lines that follow the region: the specification's result for the kernel's
    distance table. -/
theorem value (c : Dev nD) :
    Pipeline.afterTail₀ cfgs (dats m) 0 (V0 m) tailOps c main_v24 = Cert.Chamfer.result (Dk m c) := by
  rw [tail_value m c (rowTotalD m c) (rowTotalM m c) (final2 m c) (final3 m c)]
  unfold Cert.Chamfer.result
  rw [totalD_eq, totalM_eq]

/-- The run, read: the result at the specification's value, both arguments unchanged. -/
theorem run_value : θ_run defs (onTc (τ := τ) (main (F := Ideal))) ⟨m, fun _ => 0, ρ⟩ (fun r => ∀ c : Dev nD,
      r.2.mem ((c.tc : Thread nD τ).loc main_v24) = Cert.Chamfer.result (Dk m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v24 (Pipeline.mem_restRefs_of main_v24 (by decide) (by decide))).trans (value m c),
     ((h c).2 main_arg0 (Pipeline.mem_restRefs_of main_arg0 (by decide) (by decide))).trans (W_main_arg0 m c),
     ((h c).2 main_arg1 (Pipeline.mem_restRefs_of main_arg1 (by decide) (by decide))).trans (W_main_arg1 m c)⟩) (run_main m ρ)

end Cert.KernelIdeal.Gen

end
-- ==== Proof.RefSide.lean ====
/-
  The reference program computes result (refDist a b).

  Read at an index, the reference forms for every pair (n, j) of a batch β the value
  max((|a(β,n)|² + |b(β,j)|²) − 2 · a(β,n)·b(β,j), 0), takes the minimum over the 2048 candidates j (a fold of min
  from +∞ over a finite set: the infimum), compares it with the threshold, and sums the counted distances and the
  counts over all (β, n); its last lines are guardedMean of the two totals.
-/
import proofs.«147837_j64991445123087_2_alg».proof.Proof.RefReadPatched
import proofs.«147837_j64991445123087_2_alg».proof.Proof.Spec
import proofs.«147837_j64991445123087_2_alg».proof.Proof.LibMinLaws
import proofs.«147837_j64991445123087_2_alg».proof.Proof.LibFloatWords
import Idealize.ShloMosaic.Lib.ValueIdx
import Idealize.ShloMosaic.PureOps.Ideal.Laws
import Idealize.ShloMosaic.PureOps.Reduce

noncomputable section

open scoped BigOperators

namespace Cert.Chamfer.Ref

open Cert.ReferenceIdeal Cert.ReferenceIdeal.Gen Cert.ReferenceIdeal.Read Idealize.ShloMosaic Idealize.ShloMosaic.ValueIdx

/-! ## Indices by coordinates -/

theorem idx_v1 (β : Fin 8) (n : Fin 8192) (k : Fin 3) : idx_main_v1 (ix2 β n) k = ix3 β n k := by
  funext d; match d with | ⟨0, _⟩ => rfl | ⟨1, _⟩ => rfl | ⟨2, _⟩ => rfl

theorem idx_v3 (β : Fin 8) (j : Fin 2048) (k : Fin 3) : idx_main_v3 (ix2 β j) k = ix3 β j k := by
  funext d; match d with | ⟨0, _⟩ => rfl | ⟨1, _⟩ => rfl | ⟨2, _⟩ => rfl

theorem idx_v46 (β : Fin 8) (n : Fin 8192) (j : Fin 2048) : idx_main_v4 (idx_main_v6 (ix3 β n j)) = ix2 β n := by
  funext d; match d with | ⟨0, _⟩ => rfl | ⟨1, _⟩ => rfl

theorem idx_v57 (β : Fin 8) (n : Fin 8192) (j : Fin 2048) : idx_main_v5 (idx_main_v7 (ix3 β n j)) = ix2 β j := by
  funext d; match d with | ⟨0, _⟩ => rfl | ⟨1, _⟩ => rfl

theorem lidx_v9 (β : Fin 8) (n : Fin 8192) (j : Fin 2048) (k : Fin 3) : lidx_main_v9 (ix3 β n j) k = ix3 β n k := by
  funext d; match d with | ⟨0, _⟩ => rfl | ⟨1, _⟩ => rfl | ⟨2, _⟩ => rfl

theorem ridx_v9 (β : Fin 8) (n : Fin 8192) (j : Fin 2048) (k : Fin 3) : ridx_main_v9 (ix3 β n j) k = ix3 β j k := by
  funext d; match d with | ⟨0, _⟩ => rfl | ⟨1, _⟩ => rfl | ⟨2, _⟩ => rfl

/-! ## The stages at an index -/

section
variable (x0 : (⟨S8x8192x3, .f32⟩ : BufTy).Contents (Elt Ideal)) (x1 : (⟨S8x2048x3, .f32⟩ : BufTy).Contents (Elt Ideal))

/-- |a(β, n)|²: zero plus the three squares. -/
theorem v1_at (β : Fin 8) (n : Fin 8192) : val_main_v1 (F := Ideal) x0 (ix2 β n) = sqA x0 β n := by
  rw [val_main_v1_apply]
  show Ideal.ofBits .f32 0x00000000#32 + _ = _
  rw [Ideal.ofBits_zero_f32, zero_add]
  exact Finset.sum_congr rfl fun k _ => by rw [idx_v1]; rfl

/-- |b(β, j)|². -/
theorem v3_at (β : Fin 8) (j : Fin 2048) : val_main_v3 (F := Ideal) x1 (ix2 β j) = sqB x1 β j := by
  rw [val_main_v3_apply]
  show Ideal.ofBits .f32 0x00000000#32 + _ = _
  rw [Ideal.ofBits_zero_f32, zero_add]
  exact Finset.sum_congr rfl fun k _ => by rw [idx_v3]; rfl

/-- a(β, n) · b(β, j). -/
theorem v9_at (β : Fin 8) (n : Fin 8192) (j : Fin 2048) :
    val_main_v9 (F := Ideal) x0 x1 (ix3 β n j) = dotAB x0 x1 β n j := by
  rw [val_main_v9_apply]
  exact Finset.sum_congr rfl fun k _ => by rw [lidx_v9, ridx_v9]

/-- The clamped pair value. -/
theorem v14_at (β : Fin 8) (n : Fin 8192) (j : Fin 2048) :
    val_main_v14 (F := Ideal) x0 x1 (ix3 β n j)
      = max ((sqA x0 β n + sqB x1 β j) - ((2 : ℝ) : EReal) * dotAB x0 x1 β n j) 0 := by
  have e6 : val_main_v6 (F := Ideal) x0 (ix3 β n j) = sqA x0 β n := by
    rw [val_main_v6_apply, val_main_v4_apply, idx_v46, v1_at]
  have e7 : val_main_v7 (F := Ideal) x1 (ix3 β n j) = sqB x1 β j := by
    rw [val_main_v7_apply, val_main_v5_apply, idx_v57, v3_at]
  have e10 : val_main_v10 (F := Ideal) (ix3 β n j) = ((2 : ℝ) : EReal) := by
    rw [val_main_v10_apply]; exact Cert.FloatWords.ofBits_two
  have e13 : val_main_v13 (F := Ideal) (ix3 β n j) = 0 := by
    rw [val_main_v13_apply]; exact Ideal.ofBits_zero_f32
  show max ((val_main_v6 (F := Ideal) x0 (ix3 β n j) + val_main_v7 (F := Ideal) x1 (ix3 β n j))
      - val_main_v10 (F := Ideal) (ix3 β n j) * val_main_v9 (F := Ideal) x0 x1 (ix3 β n j)) (val_main_v13 (F := Ideal) (ix3 β n j)) = _
  rw [e6, e7, e10, e13, v9_at]

/-- The source index over (β, n) with candidate j inserted on the reduced axis. -/
theorem lift_v15 (h : S8x8192x2048.Reduces [2] S8x8192) (β : Fin 8) (n : Fin 8192) (j : Fin 2048) :
    h.lift (ix2 β n) j = ix3 β n j := by
  funext d; match d with | ⟨0, _⟩ => rfl | ⟨1, _⟩ => rfl | ⟨2, _⟩ => rfl

/-- The minimum over the candidates, from +∞: the infimum of the clamped pair values. -/
theorem v15_at (β : Fin 8) (n : Fin 8192) : val_main_v15 (F := Ideal) x0 x1 (ix2 β n) = refDist x0 x1 β n := by
  have h : S8x8192x2048.Reduces [2] S8x8192 := by decide
  unfold val_main_v15
  refine (Host.reduce_eq_fold_single FloatOps.minimumf _ _ reducesTo_S8x8192x2048_S8x8192_d2 h h_S_ (ix2 β n)).trans ?_
  refine (congrArg (fun z : EReal => Finset.fold min z (val_main_v14 (F := Ideal) x0 x1 ∘ h.lift (ix2 β n)) Finset.univ)
    (show val_main_cst_3 (F := Ideal) (Shape.Idx.first h_S_) = ⊤ from Cert.FloatWords.ofBits_inf)).trans ?_
  refine (Cert.MinLaws.fold_min_top _).trans ?_
  show (⨅ j : Fin 2048, val_main_v14 (F := Ideal) x0 x1 (h.lift (ix2 β n) j)) = refDist x0 x1 β n
  unfold refDist
  exact iInf_congr fun j =>
    (congrArg (val_main_v14 (F := Ideal) x0 x1) (lift_v15 h β n j)).trans (v14_at x0 x1 β n j)

/-- The count word: the comparison with the threshold, read as 0 or 1. -/
theorem mask_word (x : EReal) :
    FloatOps.uitofp (F := Ideal) .f32 (FloatOps.cmpf .olt x (Ideal.ofBits .f32 0x3D4CCCCD#32)) = mask x := by
  show (((Ideal.cmp .olt x thr).toNat : ℝ) : EReal) = mask x
  unfold mask Ideal.cmp
  by_cases hx : x < thr
  · simp [hx]
  · simp [hx]

theorem v18_at (β : Fin 8) (n : Fin 8192) :
    val_main_v18 (F := Ideal) x0 x1 (ix2 β n) = mask (refDist x0 x1 β n) := by
  rw [val_main_v18_apply, val_main_v17_apply, v15_at, val_main_v16_apply]
  exact mask_word _

theorem v20_at (β : Fin 8) (n : Fin 8192) :
    val_main_v20 (F := Ideal) x0 x1 (ix2 β n) = refDist x0 x1 β n * mask (refDist x0 x1 β n) := by
  rw [val_main_v20_apply, v15_at, v18_at]; rfl

/-- The number of counted points. -/
theorem v19_at (i : S_.Idx) : val_main_v19 (F := Ideal) x0 x1 i = maskTotal (refDist x0 x1) := by
  rw [val_main_v19_apply]
  show Ideal.ofBits .f32 0x00000000#32 + _ = _
  rw [Ideal.ofBits_zero_f32, zero_add, sum_idx2]
  exact Finset.sum_congr rfl fun β _ => Finset.sum_congr rfl fun n _ => v18_at x0 x1 β n

/-- The sum of the counted distances. -/
theorem v21_at (i : S_.Idx) : val_main_v21 (F := Ideal) x0 x1 i = distTotal (refDist x0 x1) := by
  rw [val_main_v21_apply]
  show Ideal.ofBits .f32 0x00000000#32 + _ = _
  rw [Ideal.ofBits_zero_f32, zero_add, sum_idx2]
  exact Finset.sum_congr rfl fun β _ => Finset.sum_congr rfl fun n _ => v20_at x0 x1 β n

/-- The last lines are guardedMean of the two totals. -/
theorem v26_eq_guardedMean :
    val_main_v26 (F := Ideal) x0 x1 = guardedMean (val_main_v21 (F := Ideal) x0 x1) (val_main_v19 (F := Ideal) x0 x1) := rfl

theorem v26_eq : val_main_v26 (F := Ideal) x0 x1 = result (refDist x0 x1) := by
  rw [v26_eq_guardedMean]
  unfold result
  rw [show val_main_v21 (F := Ideal) x0 x1 = fun _ => distTotal (refDist x0 x1) from funext fun i => v21_at x0 x1 i,
    show val_main_v19 (F := Ideal) x0 x1 = fun _ => maskTotal (refDist x0 x1) from funext fun i => v19_at x0 x1 i]

end

/-- The reference's result, for any memory and on every core, is result (refDist a b) of its two argument arrays. -/
theorem value_eq (m : (ℓ : Loc nD τ sig) → Buf (Elt Ideal) ℓ) (c : Dev nD) :
    Cert.ReferenceIdeal.Value.res_main_v26 (F := Ideal) m c
      = result (refDist (m ((c.tc : Thread nD τ).loc main_arg0)) (m ((c.tc : Thread nD τ).loc main_arg1))) := by
  rw [val_main_v26_eq]
  exact v26_eq _ _

end Cert.Chamfer.Ref

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.PairLaw.lean ====
/-
  The two ways of computing the distance to the nearest point agree when every coordinate is a real number.

  For one pair of points the five-term contraction of the augmented rows
      a₀·(−2b₀) + a₁·(−2b₁) + a₂·(−2b₂) + 1·|b|² + |a|²·1
  is the expansion (|a|² + |b|²) − 2·(a·b).  On the reals this is a ring identity; the extended reals are not
  distributive in general, so the coordinates are first replaced by real witnesses and the identity is proved
  under one coercion.

  Clamping below at zero is monotone, and a monotone map commutes with the infimum of a finite non-empty family,
  so clamping the minimum once is clamping every candidate and then taking the minimum.
-/
import proofs.«147837_j64991445123087_2_alg».proof.Proof.Spec
import proofs.«147837_j64991445123087_2_alg».proof.Proof.LibMinLaws
import proofs.«147837_j64991445123087_2_alg».proof.Proof.LibSmallWords

noncomputable section

namespace Cert.Chamfer

open Idealize.ShloMosaic Idealize.ShloMosaic.ValueIdx

/-- The ring identity on the reals: the five-term contraction is the expanded squared distance. -/
theorem pair_real (a0 a1 a2 b0 b1 b2 : ℝ) :
    a0 * (-2 * b0) + a1 * (-2 * b1) + a2 * (-2 * b2) + (b0 * b0 + b1 * b1 + b2 * b2) + (a0 * a0 + a1 * a1 + a2 * a2)
      = ((a0 * a0 + a1 * a1 + a2 * a2) + (b0 * b0 + b1 * b1 + b2 * b2)) - 2 * (a0 * b0 + a1 * b1 + a2 * b2) := by
  ring

/-- Clamping below at zero is monotone. -/
theorem clamp_mono : Monotone fun x : EReal => max x 0 :=
  fun _ _ h => max_le_max h le_rfl

section
variable (a : SA.Idx → EReal) (b : SB.Idx → EReal)

/-- For one candidate, with real coordinates, the contraction of the augmented rows is the expansion. -/
theorem contraction_eq (ha : ∀ i, ∃ r : ℝ, a i = (r : EReal)) (hb : ∀ i, ∃ r : ℝ, b i = (r : EReal))
    (β : Fin 8) (n : Fin 8192) (j : Fin 2048) :
    (∑ k : Fin 5, augA a β n k * augB b β j k)
      = (sqA a β n + sqB b β j) - ((2 : ℝ) : EReal) * dotAB a b β n j := by
  obtain ⟨a0, h0⟩ := ha (ix3 β n 0)
  obtain ⟨a1, h1⟩ := ha (ix3 β n 1)
  obtain ⟨a2, h2⟩ := ha (ix3 β n 2)
  obtain ⟨b0, g0⟩ := hb (ix3 β j 0)
  obtain ⟨b1, g1⟩ := hb (ix3 β j 1)
  obtain ⟨b2, g2⟩ := hb (ix3 β j 2)
  simp only [Fin.sum_univ_five, Fin.sum_univ_three, augA, augB, sqA, sqB, dotAB, h0, h1, h2, g0, g1, g2]
  simp only [Matrix.cons_val_zero, Matrix.cons_val_one, Matrix.cons_val, one_mul, mul_one]
  simp only [← EReal.coe_mul, ← EReal.coe_add, ← EReal.coe_sub]
  exact congrArg _ (pair_real a0 a1 a2 b0 b1 b2)

/-- With real coordinates the kernel's distance (one clamp after the minimum of the contractions) is the
    reference's (the minimum of the clamped expansions). -/
theorem kerDist_eq_refDist (ha : ∀ i, ∃ r : ℝ, a i = (r : EReal)) (hb : ∀ i, ∃ r : ℝ, b i = (r : EReal))
    (β : Fin 8) (n : Fin 8192) : kerDist a b β n = refDist a b β n := by
  calc kerDist a b β n
      = ⨅ j : Fin 2048, max (∑ k : Fin 5, augA a β n k * augB b β j k) 0 :=
        Cert.MinLaws.map_iInf_of_monotone clamp_mono
          (fun j : Fin 2048 => ∑ k : Fin 5, augA a β n k * augB b β j k)
    _ = refDist a b β n := iInf_congr fun j => by rw [contraction_eq a b ha hb β n j]

/-- Hence the two distance tables give the same result. -/
theorem result_ker_eq_ref (ha : ∀ i, ∃ r : ℝ, a i = (r : EReal)) (hb : ∀ i, ∃ r : ℝ, b i = (r : EReal)) :
    result (kerDist a b) = result (refDist a b) :=
  congrArg result (funext fun β => funext fun n => kerDist_eq_refDist a b ha hb β n)

end

end Cert.Chamfer

end
-- ==== Proof.FiniteInputs.lean ====
/-
  From the precondition "every entry of both arrays has absolute value below +∞" to "every entry is a real number".

  The precondition is the conjunction of two all-reductions by "and" of the entrywise comparison |x| < +∞.  The
  conjunction being one gives each reduction being one; a reduction over all axes being one gives the comparison at
  every index; the word of +∞ denotes the top element; and an extended real whose absolute value max x (−x) is below the
  top is neither bottom nor top, so it is a real.
-/
import proofs.«147837_j64991445123087_2_alg».proof.Defs
import Idealize.ShloMosaic.Lib.ReduceAll

noncomputable section

namespace Cert.Chamfer

open Idealize.ShloMosaic

/-- An extended real whose absolute value is below the top element is a real. -/
theorem real_of_abs_lt_top (x : EReal) (h : max x (-x) < ⊤) : ∃ r : ℝ, x = (r : EReal) := by
  induction x using EReal.rec with
  | bot => simp at h
  | top => simp at h
  | coe r => exact ⟨r, rfl⟩

/-- A one-bit word made from a truth value is one exactly when the value is true. -/
theorem true_of_ofBool_eq_one {c : Bool} (h : BitVec.ofBool c = 1#1) : c = true := by
  cases c
  · exact absurd h (by decide)
  · rfl

/-- The comparison |x| < +∞ holding at an entry makes the entry a real: the word of +∞ denotes the top element. -/
theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  exact real_of_abs_lt_top x (of_decide_eq_true (true_of_ofBool_eq_one h))

/-- A rank-0 array has one index. -/
instance subsingleton_S_ : Subsingleton Cert.Pre_finite_inputs.S_.Idx := ⟨fun a b => funext fun d => d.elim0⟩

/-- The precondition read back: every entry of both arrays is a real. -/
theorem finite_of_pre [hPre : Cert.Pre_finite_inputs.Facts]
    (x0 : FVec Ideal Cert.Pre_finite_inputs.S8x8192x3 .f32) (x1 : FVec Ideal Cert.Pre_finite_inputs.S8x2048x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h (fun d => d.elim0)
  dsimp only [Cert.Pre_finite_inputs.fn] at e
  obtain ⟨e0, e1⟩ := IntOp.andi_eq_one.1 e
  have f0 := fun i => Host.reduce_andi_all _ _ _ _ _ e0 i
  have f1 := fun i => Host.reduce_andi_all _ _ _ _ _ e1 i
  exact ⟨fun i => real_of_cmp (x0 i) (f0 i), fun i => real_of_cmp (x1 i) (f1 i)⟩

end Cert.Chamfer

end
-- ==== Proof.lean ====
/-
  The certificate of the chamfer-loss kernel against its jnp reference.

  Both programs compute, for two batches of point clouds a : [8, 8192, 3] and b : [8, 2048, 3], the mean over the
  points of a whose squared distance to the nearest point of b is below a threshold, of that distance (zero when no
  point qualifies).  The reference expands |a − b|² = |a|² + |b|² − 2 a·b pair by pair, clamps each at zero and takes
  the minimum; the kernel folds the expansion into one five-term contraction of augmented rows, takes the minimum over
  a tile's columns and clamps once, accumulating the two sums tile by tile along each batch row.

  The three frames: each kernel program runs point by point with its two accumulators carried between points (three
  kinds of point: a row's first tile resets them, a middle tile adds to them, the last tile also broadcasts them into
  the output blocks), and the reference is a straight line of host operations.  The ideal pass rewrote nothing, so the
  idealization claim is trivial.  The algebraic claim: the kernel's result is the specification's `result` of its
  distance table (IdealSide/Value.lean), the reference's is `result` of its own (RefSide.lean), and on finite
  inputs the two tables agree entry by entry (PairLaw.lean): distributivity on the reals, and the clamp commuting
  with a finite non-empty minimum.
-/
import proofs.«147837_j64991445123087_2_alg».proof.Defs
import proofs.«147837_j64991445123087_2_alg».proof.Proof.Gen.Kernel
import proofs.«147837_j64991445123087_2_alg».proof.Proof.Gen.KernelIdeal
import proofs.«147837_j64991445123087_2_alg».proof.Proof.Gen.ReferenceIdeal
import proofs.«147837_j64991445123087_2_alg».proof.Proof.Gen.Pre_finite_inputs
import proofs.«147837_j64991445123087_2_alg».proof.Proof.WordSide.Kept
import proofs.«147837_j64991445123087_2_alg».proof.Proof.IdealSide.Value
import proofs.«147837_j64991445123087_2_alg».proof.Proof.RefSide
import proofs.«147837_j64991445123087_2_alg».proof.Proof.PairLaw
import proofs.«147837_j64991445123087_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On finite inputs both programs end with the specification's result of ONE distance table. -/
theorem algebraic : Cert.algebraic_KernelIdeal_ReferenceIdeal := by
  intro m ρ m' ρ' hpre hagree
  refine ⟨fun c => Cert.Chamfer.result (Cert.KernelIdeal.Gen.Dk m c), Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨ha, hb⟩ := Cert.Chamfer.finite_of_pre _ _ (hpre c)
  rw [Cert.Chamfer.Ref.value_eq, (hagree c).1, (hagree c).2]
  exact (Cert.Chamfer.result_ker_eq_ref _ _ ha hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
